-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1433 : Shape := ⟨2, ![100000, 1433]⟩
abbrev S2x3200000 : Shape := ⟨2, ![2, 3200000]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S_ : Shape := ⟨0, ![]⟩

class Facts : Prop where
  bcast_S_S100000x1433 : S_.BroadcastsInDim S100000x1433 (![] : Fin 0 → Fin S100000x1433.rank)
  reducesTo_S100000x1433_S_d0_1 : S100000x1433.ReducesTo [0, 1] S_
  h_S_ : 0 < S_.numel
  bcast_S_S1433x16 : S_.BroadcastsInDim S1433x16 (![] : Fin 0 → Fin S1433x16.rank)
  reducesTo_S1433x16_S_d0_1 : S1433x16.ReducesTo [0, 1] S_
  bcast_S_S16 : S_.BroadcastsInDim S16 (![] : Fin 0 → Fin S16.rank)
  reducesTo_S16_S_d0 : S16.ReducesTo [0] S_
  bcast_S_S16x7 : S_.BroadcastsInDim S16x7 (![] : Fin 0 → Fin S16x7.rank)
  reducesTo_S16x7_S_d0_1 : S16x7.ReducesTo [0, 1] S_
  bcast_S_S7 : S_.BroadcastsInDim S7 (![] : Fin 0 → Fin S7.rank)
  reducesTo_S7_S_d0 : S7.ReducesTo [0] S_

variable [Facts]

def fn_part1 {F : FTy → Type} [FloatOps F] (main_arg5 : FVec F S16x7 .f32) (main_arg6 : FVec F S16x7 .f32) (main_arg7 : FVec F S7 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x7 .f32 := Host.absf main_arg5
  let main_cst_6 : FVec F S_ .f32 := constant S_ .f32 0x7F800000#32
  let main_v20 : FVec F S16x7 .f32 := broadcastInDim S16x7 ![] bcast_S_S16x7 main_cst_6
  let main_v21 : IVec S16x7 1 := cmpf .olt main_v19 main_v20
  let main_c_7 : IVec S_ 1 := constantI S_ 1 1#1
  let main_v22 : IVec S_ 1 := (fun x v => Host.reduce IntOp.andi x v reducesTo_S16x7_S_d0_1 h_S_) main_v21 main_c_7
  let main_v23 : IVec S_ 1 := andi main_v18 main_v22
  let main_v24 : FVec F S16x7 .f32 := Host.absf main_arg6
  let main_cst_8 : FVec F S_ .f32 := constant S_ .f32 0x7F800000#32
  let main_v25 : FVec F S16x7 .f32 := broadcastInDim S16x7 ![] bcast_S_S16x7 main_cst_8
  let main_v26 : IVec S16x7 1 := cmpf .olt main_v24 main_v25
  let main_c_9 : IVec S_ 1 := constantI S_ 1 1#1
  let main_v27 : IVec S_ 1 := (fun x v => Host.reduce IntOp.andi x v reducesTo_S16x7_S_d0_1 h_S_) main_v26 main_c_9
  let main_v28 : IVec S_ 1 := andi main_v23 main_v27
  let main_v29 : FVec F S7 .f32 := Host.absf main_arg7
  let main_cst_10 : FVec F S_ .f32 := constant S_ .f32 0x7F800000#32
  let main_v30 : FVec F S7 .f32 := broadcastInDim S7 ![] bcast_S_S7 main_cst_10
  let main_v31 : IVec S7 1 := cmpf .olt main_v29 main_v30
  let main_c_11 : IVec S_ 1 := constantI S_ 1 1#1
  let main_v32 : IVec S_ 1 := (fun x v => Host.reduce IntOp.andi x v reducesTo_S7_S_d0 h_S_) main_v31 main_c_11
  let main_v33 : IVec S_ 1 := andi main_v28 main_v32
  main_v33

def fn {F : FTy → Type} [FloatOps F] (main_arg0 : FVec F S100000x1433 .f32) (main_arg1 : IVec S2x3200000 32) (main_arg2 : FVec F S1433x16 .f32) (main_arg3 : FVec F S1433x16 .f32) (main_arg4 : FVec F S16 .f32) (main_arg5 : FVec F S16x7 .f32) (main_arg6 : FVec F S16x7 .f32) (main_arg7 : FVec F S7 .f32) : IVec S_ 1 :=
  let main_v0 : FVec F S100000x1433 .f32 := Host.absf main_arg0
  let main_cst : FVec F S_ .f32 := constant S_ .f32 0x7F800000#32
  let main_v1 : FVec F S100000x1433 .f32 := broadcastInDim S100000x1433 ![] bcast_S_S100000x1433 main_cst
  let main_v2 : IVec S100000x1433 1 := cmpf .olt main_v0 main_v1
  let main_c : IVec S_ 1 := constantI S_ 1 1#1
  let main_v3 : IVec S_ 1 := (fun x v => Host.reduce IntOp.andi x v reducesTo_S100000x1433_S_d0_1 h_S_) main_v2 main_c
  let main_v4 : FVec F S1433x16 .f32 := Host.absf main_arg2
  let main_cst_0 : FVec F S_ .f32 := constant S_ .f32 0x7F800000#32
  let main_v5 : FVec F S1433x16 .f32 := broadcastInDim S1433x16 ![] bcast_S_S1433x16 main_cst_0
  let main_v6 : IVec S1433x16 1 := cmpf .olt main_v4 main_v5
  let main_c_1 : IVec S_ 1 := constantI S_ 1 1#1
  let main_v7 : IVec S_ 1 := (fun x v => Host.reduce IntOp.andi x v reducesTo_S1433x16_S_d0_1 h_S_) main_v6 main_c_1
  let main_v8 : IVec S_ 1 := andi main_v3 main_v7
  let main_v9 : FVec F S1433x16 .f32 := Host.absf main_arg3
  let main_cst_2 : FVec F S_ .f32 := constant S_ .f32 0x7F800000#32
  let main_v10 : FVec F S1433x16 .f32 := broadcastInDim S1433x16 ![] bcast_S_S1433x16 main_cst_2
  let main_v11 : IVec S1433x16 1 := cmpf .olt main_v9 main_v10
  let main_c_3 : IVec S_ 1 := constantI S_ 1 1#1
  let main_v12 : IVec S_ 1 := (fun x v => Host.reduce IntOp.andi x v reducesTo_S1433x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_v13 main_v16
-- ==== Kernel.lean ====
abbrev S100000x1433 : Shape := ⟨2, ![100000, 1433]⟩
abbrev S2x3200000 : Shape := ⟨2, ![2, 3200000]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S1x3200000 : Shape := ⟨2, ![1, 3200000]⟩
abbrev S3200000 : Shape := ⟨1, ![3200000]⟩
abbrev S1433x32 : Shape := ⟨2, ![1433, 32]⟩
abbrev S100000x32 : Shape := ⟨2, ![100000, 32]⟩
abbrev S2000x1433 : Shape := ⟨2, ![2000, 1433]⟩
abbrev S2000x32 : Shape := ⟨2, ![2000, 32]⟩
abbrev S100000x16 : Shape := ⟨2, ![100000, 16]⟩
abbrev S_ : Shape := ⟨0, ![]⟩
abbrev S3200000x1 : Shape := ⟨2, ![3200000, 1]⟩
abbrev S3200000x16 : Shape := ⟨2, ![3200000, 16]⟩
abbrev S16x14 : Shape := ⟨2, ![16, 14]⟩
abbrev S1x16 : Shape := ⟨2, ![1, 16]⟩
abbrev S100000x14 : Shape := ⟨2, ![100000, 14]⟩
abbrev S10000x16 : Shape := ⟨2, ![10000, 16]⟩
abbrev S10000x14 : Shape := ⟨2, ![10000, 14]⟩
abbrev S100000x7 : Shape := ⟨2, ![100000, 7]⟩
abbrev S3200000x7 : Shape := ⟨2, ![3200000, 7]⟩
abbrev S1x7 : Shape := ⟨2, ![1, 7]⟩
abbrev S10000x7 : Shape := ⟨2, ![10000, 7]⟩
abbrev S10000 : Shape := ⟨1, ![10000]⟩
abbrev S10000x1 : Shape := ⟨2, ![10000, 1]⟩

abbrev nBuf : Space → Nat
  | .hbm => 49
  | .vmem => 20
  | .smem => 0
  | _ => 0

abbrev bufTy : (tb : Table) → Fin (tcTables nBuf tb) → BufTy
  | .hbm, ⟨0, _⟩ => ⟨S100000x1433, .f32⟩
  | .hbm, ⟨1, _⟩ => ⟨S2x3200000, .i32⟩
  | .hbm, ⟨2, _⟩ => ⟨S1433x16, .f32⟩
  | .hbm, ⟨3, _⟩ => ⟨S1433x16, .f32⟩
  | .hbm, ⟨4, _⟩ => ⟨S16, .f32⟩
  | .hbm, ⟨5, _⟩ => ⟨S16x7, .f32⟩
  | .hbm, ⟨6, _⟩ => ⟨S16x7, .f32⟩
  | .hbm, ⟨7, _⟩ => ⟨S7, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S1433x32, .f32⟩
  | .hbm, ⟨13, _⟩ => ⟨S100000x32, .f32⟩
  | .hbm, ⟨14, _⟩ => ⟨S100000x16, .f32⟩
  | .hbm, ⟨15, _⟩ => ⟨S100000x16, .f32⟩
  | .hbm, ⟨16, _⟩ => ⟨S_, .i32⟩
  | .hbm, ⟨17, _⟩ => ⟨S3200000, .i32⟩
  | .hbm, ⟨18, _⟩ => ⟨S3200000, .i1⟩
  | .hbm, ⟨19, _⟩ => ⟨S_, .i32⟩
  | .hbm, ⟨20, _⟩ => ⟨S3200000, .i32⟩
  | .hbm, ⟨21, _⟩ => ⟨S3200000, .i32⟩
  | .hbm, ⟨22, _⟩ => ⟨S3200000, .i32⟩
  | .hbm, ⟨23, _⟩ => ⟨S3200000x1, .i32⟩
  | .hbm, ⟨24, _⟩ => ⟨S3200000x16, .f32⟩
  | .hbm, ⟨25, _⟩ => ⟨S_, .f32⟩
  | .hbm, ⟨26, _⟩ => ⟨S100000x16, .f32⟩
  | .hbm, ⟨27, _⟩ => ⟨S3200000x1, .i32⟩
  | .hbm, ⟨28, _⟩ => ⟨S100000x16, .f32⟩
  | .hbm, ⟨29, _⟩ => ⟨S16x14, .f32⟩
  | .hbm, ⟨30, _⟩ => ⟨S1x16, .f32⟩
  | .hbm, ⟨31, _⟩ => ⟨S100000x14, .f32⟩
  | .hbm, ⟨32, _⟩ => ⟨S100000x7, .f32⟩
  | .hbm, ⟨33, _⟩ => ⟨S100000x7, .f32⟩
  | .hbm, ⟨34, _⟩ => ⟨S_, .i32⟩
  | .hbm, ⟨35, _⟩ => ⟨S3200000, .i32⟩
  | .hbm, ⟨36, _⟩ => ⟨S3200000, .i1⟩
  | .hbm, ⟨37, _⟩ => ⟨S_, .i32⟩
  | .hbm, ⟨38, _⟩ => ⟨S3200000, .i32⟩
  | .hbm, ⟨39, _⟩ => ⟨S3200000, .i32⟩
  | .hbm, ⟨40, _⟩ => ⟨S3200000, .i32⟩
  | .hbm, ⟨41, _⟩ => ⟨S3200000x1, .i32⟩
  | .hbm, ⟨42, _⟩ => ⟨S3200000x7, .f32⟩
  | .hbm, ⟨43, _⟩ => ⟨S_, .f32⟩
  | .hbm, ⟨44, _⟩ => ⟨S100000x7, .f32⟩
  | .hbm, ⟨45, _⟩ => ⟨S3200000x1, .i32⟩
  | .hbm, ⟨46, _⟩ => ⟨S100000x7, .f32⟩
  | .hbm, ⟨47, _⟩ => ⟨S1x7, .f32⟩
  | .hbm, ⟨48, _⟩ => ⟨S100000x7, .f32⟩
  | .local _ .vmem, ⟨0, _⟩ => ⟨S2000x1433, .f32⟩
  | .local _ .vmem, ⟨1, _⟩ => ⟨S2000x1433, .f32⟩
  | .local _ .vmem, ⟨2, _⟩ => ⟨S1433x32, .f32⟩
  | .local _ .vmem, ⟨3, _⟩ => ⟨S2000x32, .f32⟩
  | .local _ .vmem, ⟨4, _⟩ => ⟨S2000x32, .f32⟩
  | .local _ .vmem, ⟨5, _⟩ => ⟨S10000x16, .f32⟩
  | .local _ .vmem, ⟨6, _⟩ => ⟨S10000x16, .f32⟩
  | .local _ .vmem, ⟨7, _⟩ => ⟨S10000x16, .f32⟩
  | .local _ .vmem, ⟨8, _⟩ => ⟨S10000x16, .f32⟩
  | .local _ .vmem, ⟨9, _⟩ => ⟨S1x16, .f32⟩
  | .local _ .vmem, ⟨10, _⟩ => ⟨S16x14, .f32⟩
  | .local _ .vmem, ⟨11, _⟩ => ⟨S10000x14, .f32⟩
  | .local _ .vmem, ⟨12, _⟩ => ⟨S10000x14, .f32⟩
  | .local _ .vmem, ⟨13, _⟩ => ⟨S10000x7, .f32⟩
  | .local _ .vmem, ⟨14, _⟩ => ⟨S10000x7, .f32⟩
  | .local _ .vmem, ⟨15, _⟩ => ⟨S10000x7, .f32⟩
  | .local _ .vmem, ⟨16, _⟩ => ⟨S10000x7, .f32⟩
  | .local _ .vmem, ⟨17, _⟩ => ⟨S1x7, .f32⟩
  | .local _ .vmem, ⟨18, _⟩ => ⟨S10000x7, .f32⟩
  | .local _ .vmem, ⟨19, _⟩ => ⟨S10000x7, .f32⟩
  | _, _ => ⟨S100000x1433, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_1 : Ref sig .tc := ⟨.hbm, 34, rfl⟩
abbrev main_v23 : Ref sig .tc := ⟨.hbm, 35, rfl⟩
abbrev main_v24 : Ref sig .tc := ⟨.hbm, 36, rfl⟩
abbrev main_c_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_3 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x1433 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1433x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x14 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x14 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x7 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x7 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x7 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x7 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S1433x16_S1433x16_S1433x32_d1 : Shape.Concatenates [S1433x16, S1433x16] S1433x32 1
  inb_S2000x1433_S2000x1433_0_0 : ∀ a, (![0, 0] : Fin 2 → Nat) a + S2000x1433.size a ≤ S2000x1433.size a
  h_S2000x1433 : 0 < S2000x1433.numel
  bitsLt_bf16_f32 : FTy.bits .bf16 < FTy.bits .f32
  inb_S1433x32_S1433x32_0_0 : ∀ a, (![0, 0] : Fin 2 → Nat) a + S1433x32.size a ≤ S1433x32.size a
  h_S1433x32 : 0 < S1433x32.numel
  shapeCasts_S1433x32_S1433x32 : S1433x32.ShapeCasts S1433x32
  inb_S2000x32_S2000x32_0_0 : ∀ a, (![0, 0] : Fin 2 → Nat) a + S2000x32.size a ≤ S2000x32.size a
  h_S2000x32 : 0 < S2000x32.numel
  slices_S100000x32_S100000x16_0_0 : S100000x32.Slices ![0, 0] S100000x16
  slices_S100000x32_S100000x16_0_16 : S100000x32.Slices ![0, 16] S100000x16
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x16 : S_.BroadcastsInDim S100000x16 (![] : Fin 0 → Fin S100000x16.rank)
  concatenates_S16x7_S16x7_S16x14_d1 : Shape.Concatenates [S16x7, S16x7] S16x14 1
  shapeCasts_S16_S1x16 : S16.ShapeCasts S1x16
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  inb_S16x14_S16x14_0_0 : ∀ a, (![0, 0] : Fin 2 → Nat) a + S16x14.size a ≤ S16x14.size a
  h_S16x14 : 0 < S16x14.numel
  shapeCasts_S16x14_S16x14 : S16x14.ShapeCasts S16x14
  inb_S10000x14_S10000x14_0_0 : ∀ a, (![0, 0] : Fin 2 → Nat) a + S10000x14.size a ≤ S10000x14.size a
  h_S10000x14 : 0 < S10000x14.numel
  slices_S100000x14_S100000x7_0_0 : S100000x14.Slices ![0, 0] S100000x7
  slices_S100000x14_S100000x7_0_7 : S100000x14.Slices ![0, 7] S100000x7
  bcast_S_S100000x7 : S_.BroadcastsInDim S100000x7 (![] : Fin 0 → Fin S100000x7.rank)
  shapeCasts_S7_S1x7 : S7.ShapeCasts S1x7
  inb_S10000x7_S10000x7_0_0 : ∀ a, (![0, 0] : Fin 2 → Nat) a + S10000x7.size a ≤ S10000x7.size a
  h_S10000x7 : 0 < S10000x7.numel
  shapeCasts_S10000x7_S10000x7 : S10000x7.ShapeCasts S10000x7
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S10000x7 : S1x7.Broadcasts S10000x7
  reduces_S10000x7_S10000 : S10000x7.Reduces [1] S10000
  shapeCasts_S10000_S10000x1 : S10000.ShapeCasts S10000x1
  broadcasts_S10000x1_S10000x7 : S10000x1.Broadcasts S10000x7
  dot_S2000x1433_S1433x32_S2000x32_1_0_0_1_n_n_wf : DotDims.WF S2000x1433 S1433x32 S2000x32 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S10000x16_S16x14_S10000x14_1_0_0_1_n_n_wf : DotDims.WF S10000x16 S16x14 S10000x14 [1] [0] [0] [1] [] []
  gather_S100000x7_S3200000x1_S3200000x7_1_0_n_n_0_1_17_wf : GatherDims.WF S100000x7 S3200000x1 S3200000x7 [1] [0] [] [0] [] 1 ![1, 7]
  scatter_S100000x7_S3200000x1_S3200000x7_1_0_0_1_wf : ScatterDims.WF S100000x7 S3200000x1 S3200000x7 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x1433.size a ≤ S100000x1433.size a
  hwx0_0 : ∀ i : grid0.Coords, EltTy.bits .f32 = 32 ∨ (Rect.block (s := S100000x1433) S2000x1433.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1433x32.size a ≤ S1433x32.size a
  hwx0_1 : ∀ i : grid0.Coords, EltTy.bits .f32 = 32 ∨ (Rect.block (s := S1433x32) S1433x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x32.size a ≤ S100000x32.size a
  hwx0_2 : ∀ i : grid0.Coords, EltTy.bits .f32 = 32 ∨ (Rect.block (s := S100000x32) S2000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S100000x16.size a
  hwx1_1 : ∀ i : grid1.Coords, EltTy.bits .f32 = 32 ∨ (Rect.block (s := S100000x16) S10000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x14.size a ≤ S16x14.size a
  hwx1_3 : ∀ i : grid1.Coords, EltTy.bits .f32 = 32 ∨ (Rect.block (s := S16x14) S16x14.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x14.size a ≤ S100000x14.size a
  hwx1_4 : ∀ i : grid1.Coords, EltTy.bits .f32 = 32 ∨ (Rect.block (s := S100000x14) S10000x14.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x7.size a ≤ S100000x7.size a
  hwx2_0 : ∀ i : grid2.Coords, EltTy.bits .f32 = 32 ∨ (Rect.block (s := S100000x7) S10000x7.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x7.size a ≤ S100000x7.size a
  hwx2_1 : ∀ i : grid2.Coords, EltTy.bits .f32 = 32 ∨ (Rect.block (s := S100000x7) S10000x7.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x7.size a ≤ S1x7.size a
  hwx2_2 : ∀ i : grid2.Coords, EltTy.bits .f32 = 32 ∨ (Rect.block (s := S1x7) S1x7.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x7.size a ≤ S100000x7.size a
  hwx2_3 : ∀ i : grid2.Coords, EltTy.bits .f32 = 32 ∨ (Rect.block (s := S100000x7) S10000x7.size (cc2_transform_3 i) (hinb2_3 i)).WholeWords (EltTy.packing .f32)

variable [Facts₀]

def dot_S2000x1433_S1433x32_S2000x32_1_0_0_1_n_n : DotDims S2000x1433 S1433x32 S2000x32 where
  lhsContracting := [1]
  rhsContracting := [0]
  lhsNonContracting := [0]
  rhsNonContracting := [1]
  lhsBatch := []
  rhsBatch := []
  wf := dot_S2000x1433_S1433x32_S2000x32_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S10000x16_S16x14_S10000x14_1_0_0_1_n_n : DotDims S10000x16 S16x14 S10000x14 where
  lhsContracting := [1]
  rhsContracting := [0]
  lhsNonContracting := [0]
  rhsNonContracting := [1]
  lhsBatch := []
  rhsBatch := []
  wf := dot_S10000x16_S16x14_S10000x14_1_0_0_1_n_n_wf
def gather_S100000x7_S3200000x1_S3200000x7_1_0_n_n_0_1_17 : GatherDims S100000x7 S3200000x1 S3200000x7 where
  offsetDims := [1]
  collapsedSliceDims := [0]
  operandBatchingDims := []
  startIndicesBatchingDims := []
  startIndexMap := [0]
  indexVectorDim := 1
  sliceSizes := ![1, 7]
  wf := gather_S100000x7_S3200000x1_S3200000x7_1_0_n_n_0_1_17_wf
def scatter_S100000x7_S3200000x1_S3200000x7_1_0_0_1 : ScatterDims S100000x7 S3200000x1 S3200000x7 where
  updateWindowDims := [1]
  insertedWindowDims := [0]
  scatterDimsToOperandDims := [0]
  indexVectorDim := 1
  wf := scatter_S100000x7_S3200000x1_S3200000x7_1_0_0_1_wf

abbrev win0_0 : Pipeline.Window sig grid0 :=
  Pipeline.Window.ofSpec (Memref.whole main_arg0) S2000x1433.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1433x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S2000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S10000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S16x14.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v20) S10000x14.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v32) S10000x7.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S10000x7.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v33) S1x7.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S10000x7.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x1433 : Shape := ⟨2, ![100000, 1433]⟩
abbrev S2x3200000 : Shape := ⟨2, ![2, 3200000]⟩
abbrev S1433x16 : Shape := ⟨2, ![1433, 16]⟩
abbrev S16 : Shape := ⟨1, ![16]⟩
abbrev S16x7 : Shape := ⟨2, ![16, 7]⟩
abbrev S7 : Shape := ⟨1, ![7]⟩
abbrev S1x3200000 : Shape := ⟨2, ![1, 3200000]⟩
abbrev S3200000 : Shape := ⟨1, ![3200000]⟩
abbrev S100000x16 : Shape := ⟨2, ![100000, 16]⟩
abbrev S_ : Shape := ⟨0, ![]⟩
abbrev S3200000x1 : Shape := ⟨2, ![3200000, 1]⟩
abbrev S3200000x16 : Shape := ⟨2, ![3200000, 16]⟩
abbrev S1x16 : Shape := ⟨2, ![1, 16]⟩
abbrev S100000x7 : Shape := ⟨2, ![100000, 7]⟩
abbrev S3200000x7 : Shape := ⟨2, ![3200000, 7]⟩
abbrev S1x7 : Shape := ⟨2, ![1, 7]⟩
abbrev S100000 : Shape := ⟨1, ![100000]⟩
abbrev S100000x1 : Shape := ⟨2, ![100000, 1]⟩

abbrev nBuf : Space → Nat
  | .hbm => 80
  | .vmem => 0
  | .smem => 0
  | _ => 0

abbrev bufTy : (tb : Table) → Fin (tcTables nBuf tb) → BufTy
  | .hbm, ⟨0, _⟩ => ⟨S100000x1433, .f32⟩
  | .hbm, ⟨1, _⟩ => ⟨S2x3200000, .i32⟩
  | .hbm, ⟨2, _⟩ => ⟨S1433x16, .f32⟩
  | .hbm, ⟨3, _⟩ => ⟨S1433x16, .f32⟩
  | .hbm, ⟨4, _⟩ => ⟨S16, .f32⟩
  | .hbm, ⟨5, _⟩ => ⟨S16x7, .f32⟩
  | .hbm, ⟨6, _⟩ => ⟨S16x7, .f32⟩
  | .hbm, ⟨7, _⟩ => ⟨S7, .f32⟩
  | .hbm, ⟨8, _⟩ => ⟨S1x3200000, .i32⟩
  | .hbm, ⟨9, _⟩ => ⟨S3200000, .i32⟩
  | .hbm, ⟨10, _⟩ => ⟨S1x3200000, .i32⟩
  | .hbm, ⟨11, _⟩ => ⟨S3200000, .i32⟩
  | .hbm, ⟨12, _⟩ => ⟨S100000x16, .f32⟩
  | .hbm, ⟨13, _⟩ => ⟨S_, .i32⟩
  | .hbm, ⟨14, _⟩ => ⟨S3200000, .i32⟩
  | .hbm, ⟨15, _⟩ => ⟨S3200000, .i1⟩
  | .hbm, ⟨16, _⟩ => ⟨S_, .i32⟩
  | .hbm, ⟨17, _⟩ => ⟨S3200000, .i32⟩
  | .hbm, ⟨18, _⟩ => ⟨S3200000, .i32⟩
  | .hbm, ⟨19, _⟩ => ⟨S3200000, .i32⟩
  | .hbm, ⟨20, _⟩ => ⟨S3200000x1, .i32⟩
  | .hbm, ⟨21, _⟩ => ⟨S3200000x16, .f32⟩
  | .hbm, ⟨22, _⟩ => ⟨S_, .f32⟩
  | .hbm, ⟨23, _⟩ => ⟨S100000x16, .f32⟩
  | .hbm, ⟨24, _⟩ => ⟨S3200000x1, .i32⟩
  | .hbm, ⟨25, _⟩ => ⟨S100000x16, .f32⟩
  | .hbm, ⟨26, _⟩ => ⟨S1x16, .f32⟩
  | .hbm, ⟨27, _⟩ => ⟨S100000x16, .f32⟩
  | .hbm, ⟨28, _⟩ => ⟨S100000x16, .f32⟩
  | .hbm, ⟨29, _⟩ => ⟨S100000x16, .f32⟩
  | .hbm, ⟨30, _⟩ => ⟨S100000x16, .f32⟩
  | .hbm, ⟨31, _⟩ => ⟨S_, .f32⟩
  | .hbm, ⟨32, _⟩ => ⟨S100000x16, .f32⟩
  | .hbm, ⟨33, _⟩ => ⟨S100000x16, .i1⟩
  | .hbm, ⟨34, _⟩ => ⟨S_, .f32⟩
  | .hbm, ⟨35, _⟩ => ⟨S100000x16, .f32⟩
  | .hbm, ⟨36, _⟩ => ⟨S100000x16, .i1⟩
  | .hbm, ⟨37, _⟩ => ⟨S_, .f32⟩
  | .hbm, ⟨38, _⟩ => ⟨S_, .f32⟩
  | .hbm, ⟨39, _⟩ => ⟨S100000x16, .f32⟩
  | .hbm, ⟨40, _⟩ => ⟨S100000x16, .f32⟩
  | .hbm, ⟨41, _⟩ => ⟨S100000x16, .f32⟩
  | .hbm, ⟨42, _⟩ => ⟨S_, .f32⟩
  | .hbm, ⟨43, _⟩ => ⟨S100000x16, .f32⟩
  | .hbm, ⟨44, _⟩ => ⟨S100000x16, .f32⟩
  | .hbm, ⟨45, _⟩ => ⟨S100000x16, .f32⟩
  | .hbm, ⟨46, _⟩ => ⟨S100000x7, .f32⟩
  | .hbm, ⟨47, _⟩ => ⟨S_, .i32⟩
  | .hbm, ⟨48, _⟩ => ⟨S3200000, .i32⟩
  | .hbm, ⟨49, _⟩ => ⟨S3200000, .i1⟩
  | .hbm, ⟨50, _⟩ => ⟨S_, .i32⟩
  | .hbm, ⟨51, _⟩ => ⟨S3200000, .i32⟩
  | .hbm, ⟨52, _⟩ => ⟨S3200000, .i32⟩
  | .hbm, ⟨53, _⟩ => ⟨S3200000, .i32⟩
  | .hbm, ⟨54, _⟩ => ⟨S3200000x1, .i32⟩
  | .hbm, ⟨55, _⟩ => ⟨S3200000x7, .f32⟩
  | .hbm, ⟨56, _⟩ => ⟨S_, .f32⟩
  | .hbm, ⟨57, _⟩ => ⟨S100000x7, .f32⟩
  | .hbm, ⟨58, _⟩ => ⟨S3200000x1, .i32⟩
  | .hbm, ⟨59, _⟩ => ⟨S100000x7, .f32⟩
  | .hbm, ⟨60, _⟩ => ⟨S1x7, .f32⟩
  | .hbm, ⟨61, _⟩ => ⟨S100000x7, .f32⟩
  | .hbm, ⟨62, _⟩ => ⟨S100000x7, .f32⟩
  | .hbm, ⟨63, _⟩ => ⟨S100000x7, .f32⟩
  | .hbm, ⟨64, _⟩ => ⟨S100000x7, .f32⟩
  | .hbm, ⟨65, _⟩ => ⟨S_, .f32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x7, .f32⟩
  | .hbm, ⟨72, _⟩ => ⟨S100000x7, .f32⟩
  | .hbm, ⟨73, _⟩ => ⟨S100000x7, .f32⟩
  | .hbm, ⟨74, _⟩ => ⟨S_, .f32⟩
  | .hbm, ⟨75, _⟩ => ⟨S100000, .f32⟩
  | .hbm, ⟨76, _⟩ => ⟨S100000x1, .f32⟩
  | .hbm, ⟨77, _⟩ => ⟨S100000x1, .f32⟩
  | .hbm, ⟨78, _⟩ => ⟨S100000x7, .f32⟩
  | .hbm, ⟨79, _⟩ => ⟨S100000x7, .f32⟩
  | _, _ => ⟨S100000x1433, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_call0_v1 : Ref sig .tc := ⟨.hbm, 33, rfl⟩
abbrev main_call0_cst_0 : Ref sig .tc := ⟨.hbm, 34, rfl⟩
abbrev main_call0_v2 : Ref sig .tc := ⟨.hbm, 35, rfl⟩
abbrev main_call0_v3 : Ref sig .tc := ⟨.hbm, 36, rfl⟩
abbrev main_call0_cst_1 : Ref sig .tc := ⟨.hbm, 37, rfl⟩
abbrev main_call0_call0_v0 : Ref sig .tc := ⟨.hbm, 38, rfl⟩
abbrev main_call0_call0_v1 : Ref sig .tc := ⟨.hbm, 39, rfl⟩
abbrev main_call0_v4 : Ref sig .tc := ⟨.hbm, 40, rfl⟩
abbrev main_call0_v5 : Ref sig .tc := ⟨.hbm, 41, rfl⟩
abbrev main_call0_cst_2 : Ref sig .tc := ⟨.hbm, 42, rfl⟩
abbrev main_call0_v6 : Ref sig .tc := ⟨.hbm, 43, rfl⟩
abbrev main_call0_v7 : Ref sig .tc := ⟨.hbm, 44, rfl⟩
abbrev main_v20 : Ref sig .tc := ⟨.hbm, 45, rfl⟩
abbrev main_v21 : Ref sig .tc := ⟨.hbm, 46, rfl⟩
abbrev main_c_1 : Ref sig .tc := ⟨.hbm, 47, rfl⟩
abbrev main_v22 : Ref sig .tc := ⟨.hbm, 48, rfl⟩
abbrev main_v23 : Ref sig .tc := ⟨.hbm, 49, rfl⟩
abbrev main_c_2 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_3 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_call1_cst : Ref sig .tc := ⟨.hbm, 65, rfl⟩
abbrev main_call1_v0 : Ref sig .tc := ⟨.hbm, 66, rfl⟩
abbrev main_call1_cst_0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_call1_v5 : Ref sig .tc := ⟨.hbm, 72, rfl⟩
abbrev main_call1_v6 : Ref sig .tc := ⟨.hbm, 73, rfl⟩
abbrev main_call1_cst_1 : Ref sig .tc := ⟨.hbm, 74, rfl⟩
abbrev main_call1_v7 : Ref sig .tc := ⟨.hbm, 75, rfl⟩
abbrev main_call1_v8 : Ref sig .tc := ⟨.hbm, 76, rfl⟩
abbrev main_call1_v9 : Ref sig .tc := ⟨.hbm, 77, rfl⟩
abbrev main_call1_v10 : Ref sig .tc := ⟨.hbm, 78, rfl⟩
abbrev main_v37 : Ref sig .tc := ⟨.hbm, 79, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x7 : S_.BroadcastsInDim S100000x7 (![] : Fin 0 → Fin S100000x7.rank)
  bcast_S7_S1x7_1 : S7.BroadcastsInDim S1x7 (![1] : Fin 1 → Fin S1x7.rank)
  bcast_S1x7_S100000x7_0_1 : S1x7.BroadcastsInDim S100000x7 (![0, 1] : Fin 2 → Fin S100000x7.rank)
  reducesTo_S100000x7_S100000_d1 : S100000x7.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x7_0_1 : S100000x1.BroadcastsInDim S100000x7 (![0, 1] : Fin 2 → Fin S100000x7.rank)
  dot_S100000x1433_S1433x16_S100000x16_1_0_0_1_n_n_wf : DotDims.WF S100000x1433 S1433x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x7_S100000x7_1_0_0_1_n_n_wf : DotDims.WF S100000x16 S16x7 S100000x7 [1] [0] [0] [1] [] []
  gather_S100000x7_S3200000x1_S3200000x7_1_0_n_n_0_1_17_wf : GatherDims.WF S100000x7 S3200000x1 S3200000x7 [1] [0] [] [0] [] 1 ![1, 7]
  scatter_S100000x7_S3200000x1_S3200000x7_1_0_0_1_wf : ScatterDims.WF S100000x7 S3200000x1 S3200000x7 [1] [0] [0] 1

variable [Facts₀]

def dot_S100000x1433_S1433x16_S100000x16_1_0_0_1_n_n : DotDims S100000x1433 S1433x16 S100000x16 where
  lhsContracting := [1]
  rhsContracting := [0]
  lhsNonContracting := [0]
  rhsNonContracting := [1]
  lhsBatch := []
  rhsBatch := []
  wf := dot_S100000x1433_S1433x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x7_S100000x7_1_0_0_1_n_n : DotDims S100000x16 S16x7 S100000x7 where
  lhsContracting := [1]
  rhsContracting := [0]
  lhsNonContracting := [0]
  rhsNonContracting := [1]
  lhsBatch := []
  rhsBatch := []
  wf := dot_S100000x16_S16x7_S100000x7_1_0_0_1_n_n_wf
def gather_S100000x7_S3200000x1_S3200000x7_1_0_n_n_0_1_17 : GatherDims S100000x7 S3200000x1 S3200000x7 where
  offsetDims := [1]
  collapsedSliceDims := [0]
  operandBatchingDims := []
  startIndicesBatchingDims := []
  startIndexMap := [0]
  indexVectorDim := 1
  sliceSizes := ![1, 7]
  wf := gather_S100000x7_S3200000x1_S3200000x7_1_0_n_n_0_1_17_wf
def scatter_S100000x7_S3200000x1_S3200000x7_1_0_0_1 : ScatterDims S100000x7 S3200000x1 S3200000x7 where
  updateWindowDims := [1]
  insertedWindowDims := [0]
  scatterDimsToOperandDims := [0]
  indexVectorDim := 1
  wf := scatter_S100000x7_S3200000x1_S3200000x7_1_0_0_1_wf

class Facts : Prop extends Facts₀ where

variable [Facts]
-- ==== Proof.KRun.lean ====
/-
  The kernel program's run, with the contents every buffer ends at.

  The program is three kernel launches among stretches of host operations.  Its segments, the proof data of each
  launch and the buffer contents at each segment boundary are the generated frame's; the contents after the last
  segment are `Gen.W6`.  The library's launch theorem for a program of several regions is instantiated over those
  segments with the post "every buffer that outlives the launch ends at `Gen.W6`", which the final thread state
  gives when read against the final memory.  The result array and the unchanged arguments are read from it.
-/
import proofs.«109476_j62173946577413_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in its final memory every buffer
    that outlives the launch holds the contents after the last segment. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- The run with the result array named and the arguments unchanged. -/
theorem run : θ_run defs (onTc (τ := τ) (main (F := F))) ⟨m, fun _ => 0, ρ⟩ (fun r => ∀ c : Dev nD,
      r.2.mem ((c.tc : Thread nD τ).loc main_v34) = W6 m ρ c (Proc.devRef .tc main_v34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun s h c =>
      ⟨h c _ (mem_uc main_v34 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)
    (run_all m ρ)

end Cert.KernelIdeal.Run

end
-- ==== Proof.KStages.lean ====
/-
  The kernel program's host stretches, read at the buffers its three launches take.

  Between the launches the program slices the edge list into its source and destination rows, joins each layer's two
  weight matrices side by side, cuts a launch's output into its left and right halves, aggregates the left half over
  the edges (gather the source rows, add them into the destination rows), and adds a unit leading axis to a bias.
  Each of these is named here as a function of whole arrays, and each host stretch is read at the buffers that
  matter as those functions of the contents it started from.  The edge aggregation is kept as one closed function:
  nothing below looks inside the gather or the scatter.
-/
import proofs.«109476_j62173946577413_1_alg».proof.Proof.Gen.KernelIdeal.Frame
import Idealize.ShloMosaic.Lib.StableHlo.Run

noncomputable section

namespace Cert.KernelIdeal.Fold

open Cert.KernelIdeal Cert.KernelIdeal.Gen
open Idealize.ShloMosaic Idealize.ShloMosaic.TcCoe Idealize.ShloMosaic.StableHlo Idealize.SL.Sem

variable {F : FTy → Type} [FloatOps F]

/-! ## The stages -/

/-- The source row of the edge list. -/
def srcRow (ei : (⟨S2x3200000, .i32⟩ : BufTy).Contents (Elt F)) : (⟨S3200000, .i32⟩ : BufTy).Contents (Elt F) :=
  shapeCast S3200000 (extractStridedSlice S1x3200000 ![0, 0] ei slices_S2x3200000_S1x3200000_0_0) shapeCasts_S1x3200000_S3200000

/-- The destination row of the edge list. -/
def dstRow (ei : (⟨S2x3200000, .i32⟩ : BufTy).Contents (Elt F)) : (⟨S3200000, .i32⟩ : BufTy).Contents (Elt F) :=
  shapeCast S3200000 (extractStridedSlice S1x3200000 ![1, 0] ei slices_S2x3200000_S1x3200000_1_0) shapeCasts_S1x3200000_S3200000

/-- The gather's start indices: the source row with negative entries wrapped by the node count, as a column. -/
def srcCol (s : (⟨S3200000, .i32⟩ : BufTy).Contents (Elt F)) : (⟨S3200000x1, .i32⟩ : BufTy).Contents (Elt F) :=
  broadcastInDim S3200000x1 ![0] bcast_S3200000_S3200000x1_0
    (select (cmpi .slt s (broadcastInDim S3200000 ![] bcast_S_S3200000 (constantI S_ 32 0#32)))
      (addi s (broadcastInDim S3200000 ![] bcast_S_S3200000 (constantI S_ 32 100000#32))) s)

/-- The scatter's indices: the destination row as a column. -/
def dstCol (d : (⟨S3200000, .i32⟩ : BufTy).Contents (Elt F)) : (⟨S3200000x1, .i32⟩ : BufTy).Contents (Elt F) :=
  broadcastInDim S3200000x1 ![0] bcast_S3200000_S3200000x1_0 d

/-- Sum aggregation of sixteen-wide node rows over the edges: row `i` of the result is the sum of the rows of `h`
    at the sources of the edges into `i`. -/
def seg16 (s d : (⟨S3200000, .i32⟩ : BufTy).Contents (Elt F)) (h : (⟨S100000x16, .f32⟩ : BufTy).Contents (Elt F)) :
    (⟨S100000x16, .f32⟩ : BufTy).Contents (Elt F) :=
  Host.scatterAdd scatter_S100000x16_S3200000x1_S3200000x16_1_0_0_1
    (broadcastInDim S100000x16 ![] bcast_S_S100000x16 (constant S_ .f32 0x00000000#32)) (dstCol d)
    (Host.gather gather_S100000x16_S3200000x1_S3200000x16_1_0_n_n_0_1_116 h (srcCol s))

/-- Sum aggregation of seven-wide node rows over the edges. -/
def seg7 (s d : (⟨S3200000, .i32⟩ : BufTy).Contents (Elt F)) (h : (⟨S100000x7, .f32⟩ : BufTy).Contents (Elt F)) :
    (⟨S100000x7, .f32⟩ : BufTy).Contents (Elt F) :=
  Host.scatterAdd scatter_S100000x7_S3200000x1_S3200000x7_1_0_0_1
    (broadcastInDim S100000x7 ![] bcast_S_S100000x7 (constant S_ .f32 0x00000000#32)) (dstCol d)
    (Host.gather gather_S100000x7_S3200000x1_S3200000x7_1_0_n_n_0_1_17 h (srcCol s))

/-- The first layer's two weight matrices side by side: the neighbour weights, then the root weights. -/
def joinW1 (wrel wroot : (⟨S1433x16, .f32⟩ : BufTy).Contents (Elt F)) : (⟨S1433x32, .f32⟩ : BufTy).Contents (Elt F) :=
  concatenate S1433x32 1 [⟨S1433x16, wrel⟩, ⟨S1433x16, wroot⟩] concatenates_S1433x16_S1433x16_S1433x32_d1

/-- The second layer's two weight matrices side by side. -/
def joinW2 (wrel wroot : (⟨S16x7, .f32⟩ : BufTy).Contents (Elt F)) : (⟨S16x14, .f32⟩ : BufTy).Contents (Elt F) :=
  concatenate S16x14 1 [⟨S16x7, wrel⟩, ⟨S16x7, wroot⟩] concatenates_S16x7_S16x7_S16x14_d1

/-- The left and right halves of the first projection. -/
def left16 (P : (⟨S100000x32, .f32⟩ : BufTy).Contents (Elt F)) : (⟨S100000x16, .f32⟩ : BufTy).Contents (Elt F) :=
  extractStridedSlice S100000x16 ![0, 0] P slices_S100000x32_S100000x16_0_0
def right16 (P : (⟨S100000x32, .f32⟩ : BufTy).Contents (Elt F)) : (⟨S100000x16, .f32⟩ : BufTy).Contents (Elt F) :=
  extractStridedSlice S100000x16 ![0, 16] P slices_S100000x32_S100000x16_0_16

/-- The left and right halves of the second projection. -/
def left7 (P : (⟨S100000x14, .f32⟩ : BufTy).Contents (Elt F)) : (⟨S100000x7, .f32⟩ : BufTy).Contents (Elt F) :=
  extractStridedSlice S100000x7 ![0, 0] P slices_S100000x14_S100000x7_0_0
def right7 (P : (⟨S100000x14, .f32⟩ : BufTy).Contents (Elt F)) : (⟨S100000x7, .f32⟩ : BufTy).Contents (Elt F) :=
  extractStridedSlice S100000x7 ![0, 7] P slices_S100000x14_S100000x7_0_7

/-- A bias vector as a one-row matrix. -/
def biasRow16 (b : (⟨S16, .f32⟩ : BufTy).Contents (Elt F)) : (⟨S1x16, .f32⟩ : BufTy).Contents (Elt F) :=
  shapeCast S1x16 b shapeCasts_S16_S1x16
def biasRow7 (b : (⟨S7, .f32⟩ : BufTy).Contents (Elt F)) : (⟨S1x7, .f32⟩ : BufTy).Contents (Elt F) :=
  shapeCast S1x7 b shapeCasts_S7_S1x7

/-! ## The first stretch: the edge rows and the first layer's joined weights -/

theorem ops0_src (W : Valuation τ sig (Elt F)) : after hostOps0 W (Proc.devRef .tc main_v1) = srcRow (W (Proc.devRef .tc main_arg1)) := by
  after_results; rfl
theorem ops0_dst (W : Valuation τ sig (Elt F)) : after hostOps0 W (Proc.devRef .tc main_v3) = dstRow (W (Proc.devRef .tc main_arg1)) := by
  after_results; rfl
theorem ops0_w1 (W : Valuation τ sig (Elt F)) :
    after hostOps0 W (Proc.devRef .tc main_v4) = joinW1 (W (Proc.devRef .tc main_arg3)) (W (Proc.devRef .tc main_arg2)) := by
  after_results; rfl
theorem ops0_arg0 (W : Valuation τ sig (Elt F)) : after hostOps0 W (Proc.devRef .tc main_arg0) = W (Proc.devRef .tc main_arg0) := by
  after_results
theorem ops0_arg4 (W : Valuation τ sig (Elt F)) : after hostOps0 W (Proc.devRef .tc main_arg4) = W (Proc.devRef .tc main_arg4) := by
  after_results
theorem ops0_arg5 (W : Valuation τ sig (Elt F)) : after hostOps0 W (Proc.devRef .tc main_arg5) = W (Proc.devRef .tc main_arg5) := by
  after_results
theorem ops0_arg6 (W : Valuation τ sig (Elt F)) : after hostOps0 W (Proc.devRef .tc main_arg6) = W (Proc.devRef .tc main_arg6) := by
  after_results
theorem ops0_arg7 (W : Valuation τ sig (Elt F)) : after hostOps0 W (Proc.devRef .tc main_arg7) = W (Proc.devRef .tc main_arg7) := by
  after_results

/-! ## The second stretch: the first aggregation, the root half, the bias row, the second layer's joined weights -/

attribute [local irreducible] Host.gather Host.scatterAdd in
theorem ops1_agg (W : Valuation τ sig (Elt F)) :
    after hostOps1 W (Proc.devRef .tc main_v17)
      = seg16 (W (Proc.devRef .tc main_v1)) (W (Proc.devRef .tc main_v3)) (left16 (W (Proc.devRef .tc main_v5))) := by
  after_results; rfl
theorem ops1_root (W : Valuation τ sig (Elt F)) : after hostOps1 W (Proc.devRef .tc main_v7) = right16 (W (Proc.devRef .tc main_v5)) := by
  after_results; rfl
theorem ops1_bias (W : Valuation τ sig (Elt F)) : after hostOps1 W (Proc.devRef .tc main_v19) = biasRow16 (W (Proc.devRef .tc main_arg4)) := by
  after_results; rfl
theorem ops1_w2 (W : Valuation τ sig (Elt F)) :
    after hostOps1 W (Proc.devRef .tc main_v18) = joinW2 (W (Proc.devRef .tc main_arg6)) (W (Proc.devRef .tc main_arg5)) := by
  after_results; rfl
theorem ops1_src (W : Valuation τ sig (Elt F)) : after hostOps1 W (Proc.devRef .tc main_v1) = W (Proc.devRef .tc main_v1) := by
  after_results
theorem ops1_dst (W : Valuation τ sig (Elt F)) : after hostOps1 W (Proc.devRef .tc main_v3) = W (Proc.devRef .tc main_v3) := by
  after_results
theorem ops1_arg7 (W : Valuation τ sig (Elt F)) : after hostOps1 W (Proc.devRef .tc main_arg7) = W (Proc.devRef .tc main_arg7) := by
  after_results

/-! ## The third stretch: the second aggregation, the root half, the bias row -/

attribute [local irreducible] Host.gather Host.scatterAdd in
theorem ops2_agg (W : Valuation τ sig (Elt F)) :
    after hostOps2 W (Proc.devRef .tc main_v32)
      = seg7 (W (Proc.devRef .tc main_v1)) (W (Proc.devRef .tc main_v3)) (left7 (W (Proc.devRef .tc main_v20))) := by
  after_results; rfl
theorem ops2_root (W : Valuation τ sig (Elt F)) : after hostOps2 W (Proc.devRef .tc main_v22) = right7 (W (Proc.devRef .tc main_v20)) := by
  after_results; rfl
theorem ops2_bias (W : Valuation τ sig (Elt F)) : after hostOps2 W (Proc.devRef .tc main_v33) = biasRow7 (W (Proc.devRef .tc main_arg7)) := by
  after_results; rfl

end Cert.KernelIdeal.Fold

end
-- ==== Proof.Spec.lean ====
/-
  The scalar functions of a two-layer graph convolution's activations, on the extended reals.

  `elu h` is `h` above zero and `exp h - 1` otherwise.  For a row `h` of seven class scores, `rowMax h` is their
  maximum (taken from minus infinity) and `lsm h q` the log-softmax of the row at class `q`: the score shifted by
  the row's maximum, minus the logarithm of the sum of the exponentials of all seven shifted scores.
-/
import Idealize.ShloMosaic.PureOps.Ideal

noncomputable section

namespace Cert.Spec

open Idealize.ShloMosaic

/-- The exponential linear unit with unit slope parameter. -/
def elu (h : EReal) : EReal := if 0 < h then h else Ideal.exp h - 1

/-- The maximum of a row of seven scores, from minus infinity. -/
def rowMax (h : Fin 7 → EReal) : EReal := (Finset.univ : Finset (Fin 7)).fold max ⊥ h

/-- The log-softmax of a row of seven scores at class `q`. -/
def lsm (h : Fin 7 → EReal) (q : Fin 7) : EReal :=
  (h q - rowMax h) - Ideal.log (∑ j : Fin 7, Ideal.exp (h j - rowMax h))

end Cert.Spec

end
-- ==== Proof.KValue.lean ====
/-
  The kernel program's result array as one function of its arguments, at the extended reals.

  The result is what the third launch leaves in its output array.  Each launch's output array is a whole-array
  function of the arrays it was entered with (its closed form: a matrix product; a sum, the exponential linear unit
  and a matrix product; a sum and a row-wise log-softmax), and the arrays a launch is entered with are what the
  preceding host stretch made of the previous launch's output and of the arguments.  Walking back from the last
  boundary to the launch memory composes these into `value`.
-/
import proofs.«109476_j62173946577413_1_alg».proof.Proof.KStages
import proofs.«109476_j62173946577413_1_alg».proof.Proof.Spec
import Idealize.ShloMosaic.Lib.ValueIdx

noncomputable section

namespace Cert.KernelIdeal.Fold

open Cert.KernelIdeal Cert.KernelIdeal.Gen
open Idealize.ShloMosaic Idealize.ShloMosaic.TcCoe Idealize.ShloMosaic.StableHlo Idealize.SL.Sem
open Idealize.ShloMosaic.ValueIdx

/-! ## The three launches as whole-array functions -/

/-- The first projection: the features times the joined first-layer weights. -/
def proj1 (x : S100000x1433.Idx → EReal) (w : S1433x32.Idx → EReal) : S100000x32.Idx → EReal :=
  fun i => ∑ k : Fin 1433, x (ix2 (i 0) k) * w (ix2 k (i 1))

/-- The second projection: the aggregated neighbours plus the root term plus the bias, through the exponential
    linear unit, times the joined second-layer weights. -/
def proj2 (agg r : S100000x16.Idx → EReal) (b : S1x16.Idx → EReal) (w : S16x14.Idx → EReal) : S100000x14.Idx → EReal :=
  fun i => ∑ k : Fin 16, Cert.Spec.elu ((agg (ix2 (i 0) k) + r (ix2 (i 0) k)) + b (ix2 (0 : Fin 1) k)) * w (ix2 k (i 1))

/-- The class scores: the aggregated neighbours plus the root term plus the bias, log-softmaxed along each row. -/
def scores (agg r : S100000x7.Idx → EReal) (b : S1x7.Idx → EReal) : S100000x7.Idx → EReal :=
  fun i => Cert.Spec.lsm (fun j => (agg (ix2 (i 0) j) + r (ix2 (i 0) j)) + b (ix2 (0 : Fin 1) j)) (i 1)

/-- The first projection, from the arguments. -/
def stage1 (x : S100000x1433.Idx → EReal) (wroot1 wrel1 : S1433x16.Idx → EReal) : S100000x32.Idx → EReal :=
  proj1 x (joinW1 (F := Ideal) wrel1 wroot1)

/-- The second projection, from the arguments. -/
def stage2 (x : S100000x1433.Idx → EReal) (ei : (⟨S2x3200000, .i32⟩ : BufTy).Contents (Elt Ideal))
    (wroot1 wrel1 : S1433x16.Idx → EReal) (b1 : S16.Idx → EReal) (wroot2 wrel2 : S16x7.Idx → EReal) : S100000x14.Idx → EReal :=
  proj2 (seg16 (F := Ideal) (srcRow ei) (dstRow ei) (left16 (F := Ideal) (stage1 x wroot1 wrel1)))
    (right16 (F := Ideal) (stage1 x wroot1 wrel1)) (biasRow16 (F := Ideal) b1) (joinW2 (F := Ideal) wrel2 wroot2)

/-- The program's result as a function of its eight arguments. -/
def value (x : S100000x1433.Idx → EReal) (ei : (⟨S2x3200000, .i32⟩ : BufTy).Contents (Elt Ideal))
    (wroot1 wrel1 : S1433x16.Idx → EReal) (b1 : S16.Idx → EReal) (wroot2 wrel2 : S16x7.Idx → EReal) (b2 : S7.Idx → EReal) :
    S100000x7.Idx → EReal :=
  scores (seg7 (F := Ideal) (srcRow ei) (dstRow ei) (left7 (F := Ideal) (stage2 x ei wroot1 wrel1 b1 wroot2 wrel2)))
    (right7 (F := Ideal) (stage2 x ei wroot1 wrel1 b1 wroot2 wrel2)) (biasRow7 (F := Ideal) b2)

/-! ## The launches' closed forms, as taken from the block-to-array modules -/

/-- The output array of each launch, at an index, from the arrays the launch was entered with. -/
structure Closed : Prop where
  arr0 : ∀ (V : (c : Dev nD) → (b : Ref sig .tc) → Buf (Elt Ideal) ((c : Thread nD τ).loc b)) (c : Dev nD)
      (p : Fin 100000) (q : Fin 32),
      (dat0 V c).arrAt 2 cfg0.N (ix2 p q) = proj1 (V c main_arg0) (V c main_v4) (ix2 p q)
  arr1 : ∀ (V : (c : Dev nD) → (b : Ref sig .tc) → Buf (Elt Ideal) ((c : Thread nD τ).loc b)) (c : Dev nD)
      (p : Fin 100000) (q : Fin 14),
      (dat1 V c).arrAt 4 cfg1.N (ix2 p q) = proj2 (V c main_v17) (V c main_v7) (V c main_v19) (V c main_v18) (ix2 p q)
  arr2 : ∀ (V : (c : Dev nD) → (b : Ref sig .tc) → Buf (Elt Ideal) ((c : Thread nD τ).loc b)) (c : Dev nD)
      (p : Fin 100000) (q : Fin 7),
      (dat2 V c).arrAt 3 cfg2.N (ix2 p q) = scores (V c main_v32) (V c main_v22) (V c main_v33) (ix2 p q)

variable (m : (ℓ : Loc nD τ sig) → Buf (Elt Ideal) ℓ) (ρ : Dev nD → PrngReg) (c : Dev nD)

/-! ## Up to the first launch -/

theorem W1_arg0 : W1 m ρ c (Proc.devRef .tc main_arg0) = m ((c : Thread nD τ).loc main_arg0) := ops0_arg0 (W0 m ρ c)
theorem W1_w1 : W1 m ρ c (Proc.devRef .tc main_v4)
    = joinW1 (F := Ideal) (m ((c : Thread nD τ).loc main_arg3)) (m ((c : Thread nD τ).loc main_arg2)) := ops0_w1 (W0 m ρ c)
theorem W1_src : W1 m ρ c (Proc.devRef .tc main_v1) = srcRow (F := Ideal) (m ((c : Thread nD τ).loc main_arg1)) := ops0_src (W0 m ρ c)
theorem W1_dst : W1 m ρ c (Proc.devRef .tc main_v3) = dstRow (F := Ideal) (m ((c : Thread nD τ).loc main_arg1)) := ops0_dst (W0 m ρ c)

/-! ## The first launch's output -/

/-- The first projection's array when the first launch is left. -/
theorem W2_proj (H : Closed) : W2 m ρ c (Proc.devRef .tc main_v5)
    = stage1 (m ((c : Thread nD τ).loc main_arg0)) (m ((c : Thread nD τ).loc main_arg2)) (m ((c : Thread nD τ).loc main_arg3)) := by
  funext i
  obtain ⟨p, q, rfl⟩ : ∃ (p : Fin 100000) (q : Fin 32), i = ix2 p q := ⟨i 0, i 1, eq_ix2 i⟩
  refine (congrFun (W2_arr m ρ c 2) (ix2 p q)).trans ?_
  refine (H.arr0 (V1 m ρ) c p q).trans ?_
  show proj1 (W1 m ρ c (Proc.devRef .tc main_arg0)) (W1 m ρ c (Proc.devRef .tc main_v4)) (ix2 p q) = _
  rw [W1_arg0, W1_w1]
  rfl

/-! ## Through the second stretch into the second launch -/

theorem W2_src : W2 m ρ c (Proc.devRef .tc main_v1) = srcRow (F := Ideal) (m ((c : Thread nD τ).loc main_arg1)) :=
  (W2_of_ne m ρ c main_v1 (by decide)).trans (W1_src m ρ c)
theorem W2_dst : W2 m ρ c (Proc.devRef .tc main_v3) = dstRow (F := Ideal) (m ((c : Thread nD τ).loc main_arg1)) :=
  (W2_of_ne m ρ c main_v3 (by decide)).trans (W1_dst m ρ c)
theorem W2_arg4 : W2 m ρ c (Proc.devRef .tc main_arg4) = m ((c : Thread nD τ).loc main_arg4) :=
  (W2_of_ne m ρ c main_arg4 (by decide)).trans (ops0_arg4 (W0 m ρ c))
theorem W2_arg5 : W2 m ρ c (Proc.devRef .tc main_arg5) = m ((c : Thread nD τ).loc main_arg5) :=
  (W2_of_ne m ρ c main_arg5 (by decide)).trans (ops0_arg5 (W0 m ρ c))
theorem W2_arg6 : W2 m ρ c (Proc.devRef .tc main_arg6) = m ((c : Thread nD τ).loc main_arg6) :=
  (W2_of_ne m ρ c main_arg6 (by decide)).trans (ops0_arg6 (W0 m ρ c))
theorem W2_arg7 : W2 m ρ c (Proc.devRef .tc main_arg7) = m ((c : Thread nD τ).loc main_arg7) :=
  (W2_of_ne m ρ c main_arg7 (by decide)).trans (ops0_arg7 (W0 m ρ c))

theorem W3_agg (H : Closed) : W3 m ρ c (Proc.devRef .tc main_v17)
    = seg16 (F := Ideal) (srcRow (m ((c : Thread nD τ).loc main_arg1))) (dstRow (m ((c : Thread nD τ).loc main_arg1)))
        (left16 (F := Ideal) (stage1 (m ((c : Thread nD τ).loc main_arg0)) (m ((c : Thread nD τ).loc main_arg2)) (m ((c : Thread nD τ).loc main_arg3)))) :=
  (ops1_agg (W2 m ρ c)).trans (by rw [W2_src, W2_dst, W2_proj m ρ c H])
theorem W3_root (H : Closed) : W3 m ρ c (Proc.devRef .tc main_v7)
    = right16 (F := Ideal) (stage1 (m ((c : Thread nD τ).loc main_arg0)) (m ((c : Thread nD τ).loc main_arg2)) (m ((c : Thread nD τ).loc main_arg3))) :=
  (ops1_root (W2 m ρ c)).trans (by rw [W2_proj m ρ c H])
theorem W3_bias : W3 m ρ c (Proc.devRef .tc main_v19) = biasRow16 (F := Ideal) (m ((c : Thread nD τ).loc main_arg4)) :=
  (ops1_bias (W2 m ρ c)).trans (by rw [W2_arg4])
theorem W3_w2 : W3 m ρ c (Proc.devRef .tc main_v18)
    = joinW2 (F := Ideal) (m ((c : Thread nD τ).loc main_arg6)) (m ((c : Thread nD τ).loc main_arg5)) :=
  (ops1_w2 (W2 m ρ c)).trans (by rw [W2_arg6, W2_arg5])

/-! ## The second launch's output -/

theorem W4_proj (H : Closed) : W4 m ρ c (Proc.devRef .tc main_v20)
    = stage2 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  funext i
  obtain ⟨p, q, rfl⟩ : ∃ (p : Fin 100000) (q : Fin 14), i = ix2 p q := ⟨i 0, i 1, eq_ix2 i⟩
  refine (congrFun (W4_arr m ρ c 4) (ix2 p q)).trans ?_
  refine (H.arr1 (V3 m ρ) c p q).trans ?_
  show proj2 (W3 m ρ c (Proc.devRef .tc main_v17)) (W3 m ρ c (Proc.devRef .tc main_v7)) (W3 m ρ c (Proc.devRef .tc main_v19))
      (W3 m ρ c (Proc.devRef .tc main_v18)) (ix2 p q) = _
  rw [W3_agg m ρ c H, W3_root m ρ c H, W3_bias, W3_w2]
  rfl

/-! ## Through the third stretch into the third launch -/

theorem W4_src : W4 m ρ c (Proc.devRef .tc main_v1) = srcRow (F := Ideal) (m ((c : Thread nD τ).loc main_arg1)) :=
  (W4_of_ne m ρ c main_v1 (by decide)).trans ((ops1_src (W2 m ρ c)).trans (W2_src m ρ c))
theorem W4_dst : W4 m ρ c (Proc.devRef .tc main_v3) = dstRow (F := Ideal) (m ((c : Thread nD τ).loc main_arg1)) :=
  (W4_of_ne m ρ c main_v3 (by decide)).trans ((ops1_dst (W2 m ρ c)).trans (W2_dst m ρ c))
theorem W4_arg7 : W4 m ρ c (Proc.devRef .tc main_arg7) = m ((c : Thread nD τ).loc main_arg7) :=
  (W4_of_ne m ρ c main_arg7 (by decide)).trans ((ops1_arg7 (W2 m ρ c)).trans (W2_arg7 m ρ c))

theorem W5_agg (H : Closed) : W5 m ρ c (Proc.devRef .tc main_v32)
    = seg7 (F := Ideal) (srcRow (m ((c : Thread nD τ).loc main_arg1))) (dstRow (m ((c : Thread nD τ).loc main_arg1)))
        (left7 (F := Ideal) (stage2 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)))) :=
  (ops2_agg (W4 m ρ c)).trans (by rw [W4_src, W4_dst, W4_proj m ρ c H])
theorem W5_root (H : Closed) : W5 m ρ c (Proc.devRef .tc main_v22)
    = right7 (F := Ideal) (stage2 (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6))) :=
  (ops2_root (W4 m ρ c)).trans (by rw [W4_proj m ρ c H])
theorem W5_bias : W5 m ρ c (Proc.devRef .tc main_v33) = biasRow7 (F := Ideal) (m ((c : Thread nD τ).loc main_arg7)) :=
  (ops2_bias (W4 m ρ c)).trans (by rw [W4_arg7])

/-! ## The result -/

/-- The result array, when the program returns, is `value` of the arguments' launch contents. -/
theorem W6_value (H : Closed) : W6 m ρ c (Proc.devRef .tc main_v34)
    = value (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  funext i
  obtain ⟨p, q, rfl⟩ : ∃ (p : Fin 100000) (q : Fin 7), i = ix2 p q := ⟨i 0, i 1, eq_ix2 i⟩
  refine (congrFun (W6_arr m ρ c 3) (ix2 p q)).trans ?_
  refine (H.arr2 (V5 m ρ) c p q).trans ?_
  show scores (W5 m ρ c (Proc.devRef .tc main_v32)) (W5 m ρ c (Proc.devRef .tc main_v22)) (W5 m ρ c (Proc.devRef .tc main_v33)) (ix2 p q) = _
  rw [W5_agg m ρ c H, W5_root m ρ c H, W5_bias]
  rfl

end Cert.KernelIdeal.Fold

end
-- ==== Proof.LibPlainDot.lean ====
/-
  A plain matrix product read at an index.

  For the dimension numbers of an ordinary `[M, K] × [K, N] → [M, N]` product (the left operand's axis 1 contracted with the
  right operand's axis 0, no batch axis), the contraction index is its one coordinate, and the operand indices at output
  index `(p, q)` and contraction coordinate `k` are `(p, k)` and `(k, q)`.  So at the extended reals both the host's
  `dot_general` and a `tpu.matmul` into a zero accumulator are `∑ k : Fin K, l (p, k) · r (k, q)`.
-/
import Idealize.ShloMosaic.PureOps.Ideal
import Idealize.ShloMosaic.PureOps.Ideal.Laws
import Idealize.ShloMosaic.Lib.ValueIdx

noncomputable section

namespace Cert.Lib

open Idealize.ShloMosaic Idealize.ShloMosaic.ValueIdx

/-- The contraction sum of a plain product, re-indexed by the contracted coordinate. -/
theorem plain_contr_sum {M K N : Nat} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hl : (DotDims.plain M K N).lhsIdx (ix2 p q) ((contrEquiv1 (DotDims.plain M K N) K rfl rfl).symm k) = ix2 p k := by
    funext a
    refine Fin.ext ?_
    match a with
    | ⟨0, _⟩ => rfl
    | ⟨1, _⟩ =>
      refine ((DotDims.plain M K N).lhsIdx_val_of_single (cl := (1 : Fin 2)) rfl (ix2 p q) _).trans ?_
      exact contrEquiv1_symm_val (DotDims.plain M K N) K rfl rfl k
  have hr : (DotDims.plain M K N).rhsIdx (ix2 p q) ((contrEquiv1 (DotDims.plain M K N) K rfl rfl).symm k) = ix2 k q := by
    funext a
    refine Fin.ext ?_
    match a with
    | ⟨0, _⟩ =>
      refine ((DotDims.plain M K N).rhsIdx_val_of_single (cr := (0 : Fin 2)) rfl (ix2 p q) _).trans ?_
      exact contrEquiv1_symm_val (DotDims.plain M K N) K rfl rfl k
    | ⟨1, _⟩ => rfl
  rw [hl, hr]

/-- The host's `dot_general` with plain dimension numbers, at an index, over the extended reals. -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) :=
  (Ideal.dotGeneral_apply (DotDims.plain M K N) prec sched l r (ix2 p q)).trans (plain_contr_sum l r p q)

/-- A `tpu.matmul` with plain dimension numbers into the zero accumulator, at an index, over the extended reals. -/
theorem matmul_plain_zero_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) :=
  (Ideal.matmul_constant_zero_apply (DotDims.plain M K N) prec l r (ix2 p q)).trans (plain_contr_sum l r p q)

end Cert.Lib

end
-- ==== Proof.Region0.lean ====
/-
  The first kernel's result array as one function of its two argument arrays.

  At every grid point the kernel body multiplies a `[2000, 1433]` row block of the node features by the whole
  `[1433, 32]` weight matrix.  A row of the product depends on that row of the block alone, the row blocks of the
  feature window and of the result window move together with the grid coordinate, and the fifty row blocks tile the
  array; so the array the region leaves is the product of the whole feature array and the weight matrix.
-/
import proofs.«109476_j62173946577413_1_alg».proof.Proof.Gen.KernelIdeal.Frame
import proofs.«109476_j62173946577413_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Blocks

open Cert.KernelIdeal Idealize.ShloMosaic Idealize.ShloMosaic.TcCoe Idealize.SL.Sem
open Idealize.ShloMosaic.Pipeline (Dat)
open Idealize.ShloMosaic.ValueIdx

/-! ## The body's value at a row and a column -/

/-- THE BODY'S VALUE at row `p` and column `q` of a grid point's blocks: the row of the feature block against
    column `q` of the weight matrix. -/
theorem pay0_apply (x0 : Vec Ideal S2000x1433 .f32) (x1 : Vec Ideal S1433x32 .f32) (p : Fin 2000) (q : Fin 32) :
    Gen.k0_pay1 x0 x1 (ix2 p q) = ∑ k : Fin 1433, x0 (ix2 p k) * x1 (ix2 k q) := by
  unfold Gen.k0_pay1
  rw [show dot_S2000x1433_S1433x32_S2000x32_1_0_0_1_n_n = DotDims.plain 2000 1433 32 from rfl]
  refine (Cert.Lib.matmul_plain_zero_apply none _ _ p q).trans ?_
  refine Finset.sum_congr rfl fun k _ => ?_
  rw [truncf_apply, truncf_apply, shapeCast_self]

/-! ## From the row blocks to the array -/

variable (V : (c : Dev nD) → (b : Ref sig .tc) → Buf (Elt Ideal) ((c : Thread nD τ).loc b)) (c : Dev nD)

theorem offsets_zero0 : (![0, 0] : Fin 2 → Nat) = fun _ => 0 := funext fun a => by fin_cases a <;> rfl

/-- Row `p` of the feature array against column `q` of the weight matrix. -/
def matmulRow (x : S100000x1433.Idx → EReal) (w : S1433x32.Idx → EReal) (p : Fin 100000) (q : Fin 32) : EReal :=
  ∑ k : Fin 1433, x (ix2 p k) * w (ix2 k q)

/-- The same as an array: what the result array ends holding. -/
def matmulArray (x : S100000x1433.Idx → EReal) (w : S1433x32.Idx → EReal) : S100000x32.Idx → EReal := fun i =>
  matmulRow x w ⟨(i 0).val, idx2_lt0 i⟩ ⟨(i 1).val, idx2_lt1 i⟩

/-- The printed index maps, decided over the fifty grid points: the feature window and the result window are at row
    block `t`, column block 0; the weight window stays at its one block. -/
theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The feature window's block at point `t` is rows `2000 t … 2000 t + 1999` of its array. -/
theorem block0_0_apply (t : Fin cfg0.N) (x : S2000x1433.Idx) (k : S100000x1433.Idx)
    (hk0 : (k 0).val = 2000 * t.val + (x 0).val) (hk1 : (k 1).val = (x 1).val) :
    (Gen.iblk0 V c 0 t : Vec Ideal S2000x1433 .f32) x = (V c main_arg0 : S100000x1433.Idx → EReal) k := by
  obtain ⟨e0, e1, -⟩ := index_facts0 t
  unfold Gen.iblk0
  rw [View.read_apply]
  show V c main_arg0 _ = V c main_arg0 _
  congr 1
  funext a
  apply Fin.ext
  match a with
  | ⟨0, _⟩ => show win0_0.index t 0 * 2000 + 1 * (x 0).val = (k 0).val; rw [e0, hk0]; omega
  | ⟨1, _⟩ => show win0_0.index t 1 * 1433 + 1 * (x 1).val = (k 1).val; rw [e1, hk1]; omega

/-- The weight window's block at every point is its whole array. -/
theorem block0_1_apply (t : Fin cfg0.N) (x : S1433x32.Idx) :
    (Gen.iblk0 V c 1 t : Vec Ideal S1433x32 .f32) x = (V c main_v4 : S1433x32.Idx → EReal) x := by
  obtain ⟨-, -, e0, e1, -⟩ := index_facts0 t
  unfold Gen.iblk0
  rw [View.read_apply]
  show V c main_v4 _ = V c main_v4 _
  congr 1
  funext a
  apply Fin.ext
  match a with
  | ⟨0, _⟩ => show win0_1.index t 0 * 1433 + 1 * (x 0).val = (x 0).val; rw [e0]; omega
  | ⟨1, _⟩ => show win0_1.index t 1 * 32 + 1 * (x 1).val = (x 1).val; rw [e1]; omega

/-- The body's value at row `p`, column `q` of point `t`'s blocks, in the whole arrays' rows. -/
theorem point0_apply (t : Fin cfg0.N) (p : Fin 2000) (q : Fin 32) (r : Fin 100000) (hr : r.val = 2000 * t.val + p.val) :
    Gen.k0_pay1 (Gen.iblk0 V c 0 t) (Gen.iblk0 V c 1 t) (ix2 p q) = matmulRow (V c main_arg0) (V c main_v4) r q := by
  unfold matmulRow
  refine (pay0_apply _ _ p q).trans ?_
  refine Finset.sum_congr rfl fun k _ => ?_
  rw [block0_0_apply V c t (ix2 p k) (ix2 r k) hr rfl, block0_1_apply V c t (ix2 k q)]

/-- WHAT POINT `t` WRITES BACK is block `t` of the product of the feature array and the weight matrix. -/
theorem flushed0_eq (t : Fin cfg0.N) :
    (Gen.dat0 V c).flushed 2 t
      = ((cfg0.win 2).blk t).view.read (Elt Ideal) (matmulArray (V c main_arg0) (V c main_v4)) := by
  show (cfg0.win 2).cut (grid0.coords t) ((Gen.dat0 V c).after 2 t) = _
  rw [Gen.after0_2]
  unfold Gen.out0_2
  rw [View.canon_unit_zero offsets_zero0]
  simp only [View.ld_unit_zero (S := S2000x1433) offsets_zero0, View.ld_unit_zero (S := S1433x32) offsets_zero0]
  obtain ⟨-, -, -, -, e0, e1⟩ := index_facts0 t
  funext y
  have hy0 : (y 0).val < 2000 := (y 0).isLt
  have hy1 : (y 1).val < 32 := (y 1).isLt
  have hN : cfg0.N = 50 := Gen.N_0
  have ht : t.val < 50 := hN ▸ t.isLt
  have hx : (cfg0.win 2).xinj (grid0.coords t) y = ix2 (⟨(y 0).val, hy0⟩ : Fin 2000) (⟨(y 1).val, hy1⟩ : Fin 32) :=
    funext fun a => match a with | ⟨0, _⟩ => rfl | ⟨1, _⟩ => rfl
  show Gen.k0_pay1 (Gen.iblk0 V c 0 t) (Gen.iblk0 V c 1 t) ((cfg0.win 2).xinj (grid0.coords t) y) = _
  rw [hx, View.read_apply]
  have hr0 : (((cfg0.win 2).blk t).view.emb y 0).val = 2000 * t.val + (y 0).val := by
    show win0_2.index t 0 * 2000 + 1 * (y 0).val = _; rw [e0]; omega
  have hr1 : (((cfg0.win 2).blk t).view.emb y 1).val = (y 1).val := by
    show win0_2.index t 1 * 32 + 1 * (y 1).val = _; rw [e1]; omega
  refine (point0_apply V c t _ _ ⟨2000 * t.val + (y 0).val, by omega⟩ rfl).trans ?_
  unfold matmulArray
  have eq : (⟨(y 1).val, hy1⟩ : Fin 32) = ⟨(((cfg0.win 2).blk t).view.emb y 1).val, idx2_lt1 _⟩ := Fin.ext hr1.symm
  have er : (⟨2000 * t.val + (y 0).val, by omega⟩ : Fin 100000) = ⟨(((cfg0.win 2).blk t).view.emb y 0).val, idx2_lt0 _⟩ := Fin.ext hr0.symm
  rw [eq, er]
  rfl

/-- An index of the array is in point `t`'s block iff each coordinate is in the block's range on its axis. -/
theorem mem_block0 (t : Fin cfg0.N) (i : S100000x32.Idx) :
    i ∈ ((cfg0.win 2).blk t).view.set ↔ ∀ a : Fin 2, win0_2.index t a * S2000x32.size a ≤ (i a).val
      ∧ (i a).val < win0_2.index t a * S2000x32.size a + S2000x32.size a := by
  show i ∈ ((View.whole main_v5).slice (win0_2.rect t)).set ↔ _
  rw [View.set_slice_whole, Rect.mem_set_unit]
  exact Iff.rfl

/-- The fifty row blocks cover the array: row `r` is in the block of point `r / 2000`. -/
theorem cover0 (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 50 := Gen.N_0
  have ht : (i 0).val / 2000 < cfg0.N := by rw [hN]; omega
  obtain ⟨-, -, -, -, e0, e1⟩ := index_facts0 ⟨(i 0).val / 2000, ht⟩
  refine ⟨⟨(i 0).val / 2000, ht⟩, Gen.flush0_2 _, ?_⟩
  rw [mem_block0]
  intro a
  match a with
  | ⟨0, _⟩ =>
    show win0_2.index ⟨(i 0).val / 2000, ht⟩ 0 * 2000 ≤ (i 0).val ∧ (i 0).val < win0_2.index ⟨(i 0).val / 2000, ht⟩ 0 * 2000 + 2000
    rw [e0]; show (i 0).val / 2000 * 2000 ≤ (i 0).val ∧ (i 0).val < (i 0).val / 2000 * 2000 + 2000; omega
  | ⟨1, _⟩ =>
    show win0_2.index ⟨(i 0).val / 2000, ht⟩ 1 * 32 ≤ (i 1).val ∧ (i 1).val < win0_2.index ⟨(i 0).val / 2000, ht⟩ 1 * 32 + 32
    rw [e1]; omega

/-- THE RESULT ARRAY after the region: the feature array times the weight matrix. -/
theorem arr0_eq : (Gen.dat0 V c).arrAt 2 cfg0.N = matmulArray (V c main_arg0) (V c main_v4) :=
  (Gen.dat0 V c).arrAt_eq_of_cover 2 _ (fun t _ => flushed0_eq V c t) cover0

/-- The result array at row `p` and column `q`. -/
theorem arr0_apply (p : Fin 100000) (q : Fin 32) :
    (Gen.dat0 V c).arrAt 2 cfg0.N (ix2 p q) = matmulRow (V c main_arg0) (V c main_v4) p q := by
  rw [arr0_eq]
  rfl

end Cert.KernelIdeal.Blocks

end
-- ==== Proof.Consts.lean ====
/-
  The three float literals the two programs spell, as the extended reals their bit patterns denote:
  zero, one, and minus infinity.
-/
import Idealize.ShloMosaic.PureOps.Ideal
import Idealize.ShloMosaic.PureOps.Ideal.Laws

noncomputable section

namespace Cert.Consts

open Idealize.ShloMosaic

/-- The word of `+0.0` denotes `0`. -/
theorem ofBits_zero : Ideal.ofBits .f32 0x00000000#32 = 0 := Ideal.ofBits_zero_f32

/-- The word of `1.0` denotes `1`. -/
theorem ofBits_one : Ideal.ofBits .f32 0x3F800000#32 = 1 := by
  simp [Ideal.ofBits, Ideal.ieee, -EReal.coe_mul]; norm_num

/-- The word of `-inf` denotes the bottom element. -/
theorem ofBits_negInf : Ideal.ofBits .f32 0xFF800000#32 = ⊥ := by
  simp [Ideal.ofBits, Ideal.ieee]

end Cert.Consts

end
-- ==== Proof.Region1.lean ====
/-
  The second kernel's result array as one function of its four argument arrays.

  At every grid point the kernel body adds two row blocks of hidden features and a bias row, applies the exponential
  linear unit entry by entry (the entry itself above zero, its exponential minus one otherwise), and multiplies the
  `[10000, 16]` block by the whole `[16, 14]` weight matrix.  A row of the product depends on that row of the block
  alone, the row blocks of the windows move together with the grid coordinate, and the ten row blocks tile the array;
  so the array the region leaves is, row by row, the activated combined features times the weight matrix.
-/
import proofs.«109476_j62173946577413_1_alg».proof.Proof.Gen.KernelIdeal.Frame
import proofs.«109476_j62173946577413_1_alg».proof.Proof.Spec
import proofs.«109476_j62173946577413_1_alg».proof.Proof.Consts
import proofs.«109476_j62173946577413_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Blocks

open Cert.KernelIdeal Idealize.ShloMosaic Idealize.ShloMosaic.TcCoe Idealize.SL.Sem
open Idealize.ShloMosaic.Pipeline (Dat)
open Idealize.ShloMosaic.ValueIdx

/-! ## The body's value at a row and a column -/

/-- The combined features at a row and a lane: the two feature blocks' entries added, plus the bias row's entry of the lane. -/
theorem features_apply (x0 x1 : Vec Ideal S10000x16 .f32) (x2 : Vec Ideal S1x16 .f32)
    (h0 h1 : S10000x16.ShapeCasts S10000x16) (h2 : S1x16.ShapeCasts S1x16) (hb : S1x16.Broadcasts S10000x16)
    (p : Fin 10000) (k : Fin 16) :
    (addf (addf (shapeCast S10000x16 x0 h0) (shapeCast S10000x16 x1 h1))
        (broadcastTo S10000x16 (shapeCast S1x16 x2 h2) hb) : FVec Ideal S10000x16 .f32) (ix2 p k)
      = (x0 (ix2 p k) + x1 (ix2 p k)) + x2 (ix2 (0 : Fin 1) k) := by
  rw [addf_apply, addf_apply, shapeCast_self, shapeCast_self, shapeCast_self, broadcastTo_1b_ab_apply]

/-- The exponential linear unit as the body spells it — a select, on the comparison with zero, between the entry and
    its exponential minus one — read at an index. -/
theorem elu_apply (v : FVec Ideal S10000x16 .f32) (i : S10000x16.Idx) :
    (select (cmpf .ogt v (broadcast S10000x16 (Scalar.ofBits (F := Ideal) .f32 0x00000000#32))) v
        (subf (exp v) (broadcast S10000x16 (Scalar.ofBits (F := Ideal) .f32 0x3F800000#32))) : FVec Ideal S10000x16 .f32) i
      = Cert.Spec.elu (v i) := by
  rw [select_apply, cmpf_apply, broadcast_apply, subf_apply, broadcast_apply]
  show Scalar.select (Ideal.cmp .ogt (v i) (Ideal.ofBits .f32 0x00000000#32)) (v i)
      (Ideal.exp (v i) - Ideal.ofBits .f32 0x3F800000#32) = _
  rw [Cert.Consts.ofBits_zero, Cert.Consts.ofBits_one]
  unfold Cert.Spec.elu
  by_cases h : 0 < v i
  · have hc : Ideal.cmp .ogt (v i) 0 = 1#1 := by
      show BitVec.ofBool (decide (0 < v i)) = 1#1
      rw [decide_eq_true h]; rfl
    rw [if_pos h, hc]; exact select_one _ _
  · have hc : Ideal.cmp .ogt (v i) 0 = 0#1 := by
      show BitVec.ofBool (decide (0 < v i)) = 0#1
      rw [decide_eq_false h]; rfl
    rw [if_neg h, hc]; exact select_zero _ _

/-- THE BODY'S VALUE at row `p` and column `q` of a grid point's blocks: the row's sixteen activated combined
    features against column `q` of the weight matrix. -/
theorem pay1_apply (x0 x1 : Vec Ideal S10000x16 .f32) (x2 : Vec Ideal S1x16 .f32) (x3 : Vec Ideal S16x14 .f32)
    (p : Fin 10000) (q : Fin 14) :
    Gen.k1_pay1 x0 x1 x2 x3 (ix2 p q)
      = ∑ k : Fin 16, Cert.Spec.elu ((x0 (ix2 p k) + x1 (ix2 p k)) + x2 (ix2 (0 : Fin 1) k)) * x3 (ix2 k q) := by
  unfold Gen.k1_pay1
  rw [show dot_S10000x16_S16x14_S10000x14_1_0_0_1_n_n = DotDims.plain 10000 16 14 from rfl]
  refine (Cert.Lib.matmul_plain_zero_apply none _ _ p q).trans ?_
  refine Finset.sum_congr rfl fun k _ => ?_
  rw [truncf_apply, truncf_apply, elu_apply, features_apply, shapeCast_self]

/-! ## From the row blocks to the array -/

variable (V : (c : Dev nD) → (b : Ref sig .tc) → Buf (Elt Ideal) ((c : Thread nD τ).loc b)) (c : Dev nD)

theorem offsets_zero1 : (![0, 0] : Fin 2 → Nat) = fun _ => 0 := funext fun a => by fin_cases a <;> rfl

/-- Row `p`'s sixteen activated combined features — two feature arrays' entries added, plus the bias row's, through the
    exponential linear unit — against column `q` of the weight matrix. -/
def eluMatmulRow (a0 a1 : S100000x16.Idx → EReal) (b : S1x16.Idx → EReal) (w : S16x14.Idx → EReal)
    (p : Fin 100000) (q : Fin 14) : EReal :=
  ∑ k : Fin 16, Cert.Spec.elu ((a0 (ix2 p k) + a1 (ix2 p k)) + b (ix2 (0 : Fin 1) k)) * w (ix2 k q)

/-- The same as an array: what the result array ends holding. -/
def eluMatmulArray (a0 a1 : S100000x16.Idx → EReal) (b : S1x16.Idx → EReal) (w : S16x14.Idx → EReal) :
    S100000x14.Idx → EReal := fun i =>
  eluMatmulRow a0 a1 b w ⟨(i 0).val, idx2_lt0 i⟩ ⟨(i 1).val, idx2_lt1 i⟩

/-- The printed index maps, decided over the ten grid points: the two feature windows and the result window are at row
    block `t`, column block 0; the bias and weight windows stay at their one block. -/
theorem index_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The first feature window's block at point `t` is rows `10000 t … 10000 t + 9999` of its array. -/
theorem block1_0_apply (t : Fin cfg1.N) (x : S10000x16.Idx) (k : S100000x16.Idx)
    (hk0 : (k 0).val = 10000 * t.val + (x 0).val) (hk1 : (k 1).val = (x 1).val) :
    (Gen.iblk1 V c 0 t : Vec Ideal S10000x16 .f32) x = (V c main_v17 : S100000x16.Idx → EReal) k := by
  obtain ⟨e0, e1, -⟩ := index_facts1 t
  unfold Gen.iblk1
  rw [View.read_apply]
  show V c main_v17 _ = V c main_v17 _
  congr 1
  funext a
  apply Fin.ext
  match a with
  | ⟨0, _⟩ => show win1_0.index t 0 * 10000 + 1 * (x 0).val = (k 0).val; rw [e0, hk0]; omega
  | ⟨1, _⟩ => show win1_0.index t 1 * 16 + 1 * (x 1).val = (k 1).val; rw [e1, hk1]; omega

/-- The second feature window's block at point `t` is the same rows of its array. -/
theorem block1_1_apply (t : Fin cfg1.N) (x : S10000x16.Idx) (k : S100000x16.Idx)
    (hk0 : (k 0).val = 10000 * t.val + (x 0).val) (hk1 : (k 1).val = (x 1).val) :
    (Gen.iblk1 V c 1 t : Vec Ideal S10000x16 .f32) x = (V c main_v7 : S100000x16.Idx → EReal) k := by
  obtain ⟨-, -, e0, e1, -⟩ := index_facts1 t
  unfold Gen.iblk1
  rw [View.read_apply]
  show V c main_v7 _ = V c main_v7 _
  congr 1
  funext a
  apply Fin.ext
  match a with
  | ⟨0, _⟩ => show win1_1.index t 0 * 10000 + 1 * (x 0).val = (k 0).val; rw [e0, hk0]; omega
  | ⟨1, _⟩ => show win1_1.index t 1 * 16 + 1 * (x 1).val = (k 1).val; rw [e1, hk1]; omega

/-- The bias window's block at every point is its whole one-row array. -/
theorem block1_2_apply (t : Fin cfg1.N) (x : S1x16.Idx) :
    (Gen.iblk1 V c 2 t : Vec Ideal S1x16 .f32) x = (V c main_v19 : S1x16.Idx → EReal) x := by
  obtain ⟨-, -, -, -, e0, e1, -⟩ := index_facts1 t
  unfold Gen.iblk1
  rw [View.read_apply]
  show V c main_v19 _ = V c main_v19 _
  congr 1
  funext a
  apply Fin.ext
  match a with
  | ⟨0, _⟩ => show win1_2.index t 0 * 1 + 1 * (x 0).val = (x 0).val; rw [e0]; omega
  | ⟨1, _⟩ => show win1_2.index t 1 * 16 + 1 * (x 1).val = (x 1).val; rw [e1]; omega

/-- The weight window's block at every point is its whole array. -/
theorem block1_3_apply (t : Fin cfg1.N) (x : S16x14.Idx) :
    (Gen.iblk1 V c 3 t : Vec Ideal S16x14 .f32) x = (V c main_v18 : S16x14.Idx → EReal) x := by
  obtain ⟨-, -, -, -, -, -, e0, e1, -⟩ := index_facts1 t
  unfold Gen.iblk1
  rw [View.read_apply]
  show V c main_v18 _ = V c main_v18 _
  congr 1
  funext a
  apply Fin.ext
  match a with
  | ⟨0, _⟩ => show win1_3.index t 0 * 16 + 1 * (x 0).val = (x 0).val; rw [e0]; omega
  | ⟨1, _⟩ => show win1_3.index t 1 * 14 + 1 * (x 1).val = (x 1).val; rw [e1]; omega

/-- The body's value at row `p`, column `q` of point `t`'s blocks, in the whole arrays' rows. -/
theorem point1_apply (t : Fin cfg1.N) (p : Fin 10000) (q : Fin 14) (r : Fin 100000) (hr : r.val = 10000 * t.val + p.val) :
    Gen.k1_pay1 (Gen.iblk1 V c 0 t) (Gen.iblk1 V c 1 t) (Gen.iblk1 V c 2 t) (Gen.iblk1 V c 3 t) (ix2 p q)
      = eluMatmulRow (V c main_v17) (V c main_v7) (V c main_v19) (V c main_v18) r q := by
  unfold eluMatmulRow
  refine (pay1_apply _ _ _ _ p q).trans ?_
  refine Finset.sum_congr rfl fun k _ => ?_
  rw [block1_0_apply V c t (ix2 p k) (ix2 r k) hr rfl, block1_1_apply V c t (ix2 p k) (ix2 r k) hr rfl,
    block1_2_apply V c t (ix2 (0 : Fin 1) k), block1_3_apply V c t (ix2 k q)]

/-- WHAT POINT `t` WRITES BACK is block `t` of the activated combined features times the weight matrix. -/
theorem flushed1_eq (t : Fin cfg1.N) :
    (Gen.dat1 V c).flushed 4 t
      = ((cfg1.win 4).blk t).view.read (Elt Ideal)
          (eluMatmulArray (V c main_v17) (V c main_v7) (V c main_v19) (V c main_v18)) := by
  show (cfg1.win 4).cut (grid1.coords t) ((Gen.dat1 V c).after 4 t) = _
  rw [Gen.after1_4]
  unfold Gen.out1_4
  rw [View.canon_unit_zero offsets_zero1]
  simp only [View.ld_unit_zero (S := S10000x16) offsets_zero1, View.ld_unit_zero (S := S1x16) offsets_zero1,
    View.ld_unit_zero (S := S16x14) offsets_zero1]
  obtain ⟨-, -, -, -, -, -, -, -, e0, e1⟩ := index_facts1 t
  funext y
  have hy0 : (y 0).val < 10000 := (y 0).isLt
  have hy1 : (y 1).val < 14 := (y 1).isLt
  have hN : cfg1.N = 10 := Gen.N_1
  have ht : t.val < 10 := hN ▸ t.isLt
  have hx : (cfg1.win 4).xinj (grid1.coords t) y = ix2 (⟨(y 0).val, hy0⟩ : Fin 10000) (⟨(y 1).val, hy1⟩ : Fin 14) :=
    funext fun a => match a with | ⟨0, _⟩ => rfl | ⟨1, _⟩ => rfl
  show Gen.k1_pay1 (Gen.iblk1 V c 0 t) (Gen.iblk1 V c 1 t) (Gen.iblk1 V c 2 t) (Gen.iblk1 V c 3 t)
      ((cfg1.win 4).xinj (grid1.coords t) y) = _
  rw [hx, View.read_apply]
  have hr0 : (((cfg1.win 4).blk t).view.emb y 0).val = 10000 * t.val + (y 0).val := by
    show win1_4.index t 0 * 10000 + 1 * (y 0).val = _; rw [e0]; omega
  have hr1 : (((cfg1.win 4).blk t).view.emb y 1).val = (y 1).val := by
    show win1_4.index t 1 * 14 + 1 * (y 1).val = _; rw [e1]; omega
  refine (point1_apply V c t _ _ ⟨10000 * t.val + (y 0).val, by omega⟩ rfl).trans ?_
  unfold eluMatmulArray
  have eq : (⟨(y 1).val, hy1⟩ : Fin 14) = ⟨(((cfg1.win 4).blk t).view.emb y 1).val, idx2_lt1 _⟩ := Fin.ext hr1.symm
  have er : (⟨10000 * t.val + (y 0).val, by omega⟩ : Fin 100000) = ⟨(((cfg1.win 4).blk t).view.emb y 0).val, idx2_lt0 _⟩ := Fin.ext hr0.symm
  rw [eq, er]
  rfl

/-- An index of the array is in point `t`'s block iff each coordinate is in the block's range on its axis. -/
theorem mem_block1 (t : Fin cfg1.N) (i : S100000x14.Idx) :
    i ∈ ((cfg1.win 4).blk t).view.set ↔ ∀ a : Fin 2, win1_4.index t a * S10000x14.size a ≤ (i a).val
      ∧ (i a).val < win1_4.index t a * S10000x14.size a + S10000x14.size a := by
  show i ∈ ((View.whole main_v20).slice (win1_4.rect t)).set ↔ _
  rw [View.set_slice_whole, Rect.mem_set_unit]
  exact Iff.rfl

/-- The ten row blocks cover the array: row `r` is in the block of point `r / 10000`. -/
theorem cover1 (i : S100000x14.Idx) :
    ∃ t : Fin cfg1.N, (cfg1.win 4).flush t = true ∧ i ∈ ((cfg1.win 4).blk t).view.set := by
  have hi0 : (i 0).val < 100000 := (i 0).isLt
  have hi1 : (i 1).val < 14 := (i 1).isLt
  have hN : cfg1.N = 10 := Gen.N_1
  have ht : (i 0).val / 10000 < cfg1.N := by rw [hN]; omega
  obtain ⟨-, -, -, -, -, -, -, -, e0, e1⟩ := index_facts1 ⟨(i 0).val / 10000, ht⟩
  refine ⟨⟨(i 0).val / 10000, ht⟩, Gen.flush1_4 _, ?_⟩
  rw [mem_block1]
  intro a
  match a with
  | ⟨0, _⟩ =>
    show win1_4.index ⟨(i 0).val / 10000, ht⟩ 0 * 10000 ≤ (i 0).val ∧ (i 0).val < win1_4.index ⟨(i 0).val / 10000, ht⟩ 0 * 10000 + 10000
    rw [e0]; show (i 0).val / 10000 * 10000 ≤ (i 0).val ∧ (i 0).val < (i 0).val / 10000 * 10000 + 10000; omega
  | ⟨1, _⟩ =>
    show win1_4.index ⟨(i 0).val / 10000, ht⟩ 1 * 14 ≤ (i 1).val ∧ (i 1).val < win1_4.index ⟨(i 0).val / 10000, ht⟩ 1 * 14 + 14
    rw [e1]; omega

/-- THE RESULT ARRAY after the region: the activated combined features times the weight matrix. -/
theorem arr1_eq : (Gen.dat1 V c).arrAt 4 cfg1.N
    = eluMatmulArray (V c main_v17) (V c main_v7) (V c main_v19) (V c main_v18) :=
  (Gen.dat1 V c).arrAt_eq_of_cover 4 _ (fun t _ => flushed1_eq V c t) cover1

/-- The result array at row `p` and column `q`. -/
theorem arr1_apply (p : Fin 100000) (q : Fin 14) :
    (Gen.dat1 V c).arrAt 4 cfg1.N (ix2 p q)
      = eluMatmulRow (V c main_v17) (V c main_v7) (V c main_v19) (V c main_v18) p q := by
  rw [arr1_eq]
  rfl

end Cert.KernelIdeal.Blocks

end
-- ==== Proof.LibKeepdims.lean ====
/-
  Two layout operations read at an index given by coordinates, for the column that a row-wise sum with kept
  dimensions produces: a vector `[a]` cast to the column `[a, 1]`, and a column `[a, 1]` broadcast over `b` lanes.
  They complete the row forms of the library's layout lemmas (a leading unit axis added, one row broadcast over many).
-/
import Idealize.ShloMosaic.Lib.ValueLayout

namespace Cert.LibKeepdims

open Idealize.ShloMosaic Idealize.ShloMosaic.ValueIdx

variable {α : Type}

/-- An `[a]` vector cast to the column `[a, 1]` reads, at `(i, u)`, the operand at `i`, whatever the unit coordinate `u`:
    both indices have the same row-major position, `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`: the row coordinate is kept
    (when `a = 1` it is `0` anyway) and the unit axis reads its one coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims
-- ==== Proof.Region2.lean ====
/-
  The third kernel's result array as one function of its three argument arrays.

  At every grid point the kernel body adds two row blocks of scores and a bias row, and replaces each row of
  seven scores by its log-softmax: the scores shifted by the row's maximum, minus the logarithm of the sum of the
  exponentials of the shifted scores.  Every operation acts within one row, the row blocks of the three windows
  move together with the grid coordinate, and the ten row blocks tile the array; so the array the region leaves is,
  row by row, the log-softmax of the combined scores of the whole argument arrays.
-/
import proofs.«109476_j62173946577413_1_alg».proof.Proof.Gen.KernelIdeal.Frame
import proofs.«109476_j62173946577413_1_alg».proof.Proof.Spec
import proofs.«109476_j62173946577413_1_alg».proof.Proof.Consts
import proofs.«109476_j62173946577413_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Blocks

open Cert.KernelIdeal Idealize.ShloMosaic Idealize.ShloMosaic.TcCoe Idealize.SL.Sem
open Idealize.ShloMosaic.Pipeline (Dat)
open Idealize.ShloMosaic.ValueIdx

/-! ## The body's value at a row and a lane -/

/-- The source index of a lane reduction of a `[10000, 7]` vector over row `p` at lane `k` is `(p, k)`. -/
theorem lift_rows7 (h : S10000x7.Reduces [1] S10000) (p : Fin 10000) (k : Fin 7) :
    h.lift (ix1 p) k = ix2 p k := by
  funext a
  refine Fin.ext ?_
  match a with
  | ⟨0, _⟩ => rfl
  | ⟨1, _⟩ => rfl

/-- The lane maximum from minus infinity, at row `p`: the maximum of the row's seven entries. -/
theorem laneMax_apply (v : FVec Ideal S10000x7 .f32) (h : S10000x7.Reduces [1] S10000) (hφ : FKind.Formats .f32)
    (hacc : (0xFF800000#32 : BitVec 32) = FKind.maximumf.neutral .f32 hφ) (p : Fin 10000) :
    multiReduction (F := Ideal) .maximumf [1] S10000 v 0xFF800000#32 h hφ hacc (ix1 p)
      = Cert.Spec.rowMax fun j => v (ix2 p j) := by
  refine (Ideal.multiReduction_maximumf_single v 0xFF800000#32 h hφ hacc (ix1 p)).trans ?_
  have e : (v ∘ h.lift (ix1 p)) = fun j : Fin 7 => v (ix2 p j) := funext fun k => congrArg v (lift_rows7 h p k)
  rw [e, Ideal.ofBits_def, Cert.Consts.ofBits_negInf]
  rfl

/-- The lane sum from zero, at row `p`: the sum of the row's seven entries. -/
theorem laneSum_apply (v : FVec Ideal S10000x7 .f32) (h : S10000x7.Reduces [1] S10000) (hφ : FKind.Formats .f32)
    (hacc : (0x00000000#32 : BitVec 32) = FKind.add.neutral .f32 hφ) (p : Fin 10000) :
    multiReduction (F := Ideal) .add [1] S10000 v 0x00000000#32 h hφ hacc (ix1 p) = ∑ j : Fin 7, v (ix2 p j) := by
  refine (Ideal.multiReduction_add_single v 0x00000000#32 h hφ hacc (ix1 p)).trans ?_
  exact Finset.sum_congr rfl fun k _ => congrArg v (lift_rows7 h p k)

/-- The combined scores at a row and a lane: the two score blocks' entries added, plus the bias row's entry of the lane. -/
theorem scores_apply (x0 x1 : Vec Ideal S10000x7 .f32) (x2 : Vec Ideal S1x7 .f32)
    (h0 h1 : S10000x7.ShapeCasts S10000x7) (h2 : S1x7.ShapeCasts S1x7) (hb : S1x7.Broadcasts S10000x7)
    (p : Fin 10000) (j : Fin 7) :
    (addf (addf (shapeCast S10000x7 x0 h0) (shapeCast S10000x7 x1 h1))
        (broadcastTo S10000x7 (shapeCast S1x7 x2 h2) hb) : FVec Ideal S10000x7 .f32) (ix2 p j)
      = (x0 (ix2 p j) + x1 (ix2 p j)) + x2 (ix2 (0 : Fin 1) j) := by
  rw [addf_apply, addf_apply, shapeCast_self, shapeCast_self, shapeCast_self, broadcastTo_1b_ab_apply]

/-- The row-wise log-softmax of a `[10000, 7]` vector of scores as the body spells it (the lane maximum kept as a
    column and broadcast back, the exponentials' lane sum kept as a column, its logarithm broadcast back), read at
    row `p` and lane `q`. -/
theorem logSoftmax_apply (s : FVec Ideal S10000x7 .f32) (h : S10000x7.Reduces [1] S10000) (hc : S10000.ShapeCasts S10000x1)
    (hb : S10000x1.Broadcasts S10000x7) (hφ : FKind.Formats .f32)
    (hmax : (0xFF800000#32 : BitVec 32) = FKind.maximumf.neutral .f32 hφ)
    (hadd : (0x00000000#32 : BitVec 32) = FKind.add.neutral .f32 hφ) (p : Fin 10000) (q : Fin 7) :
    (subf (subf s (broadcastTo S10000x7 (shapeCast S10000x1 (multiReduction (F := Ideal) .maximumf [1] S10000 s 0xFF800000#32 h hφ hmax) hc) hb))
        (broadcastTo S10000x7 (log (shapeCast S10000x1
          (multiReduction (F := Ideal) .add [1] S10000
            (exp (subf s (broadcastTo S10000x7 (shapeCast S10000x1 (multiReduction (F := Ideal) .maximumf [1] S10000 s 0xFF800000#32 h hφ hmax) hc) hb)))
            0x00000000#32 h hφ hadd) hc)) hb) : FVec Ideal S10000x7 .f32) (ix2 p q)
      = Cert.Spec.lsm (fun j => s (ix2 p j)) q := by
  have hshift : ∀ j : Fin 7,
      (subf s (broadcastTo S10000x7 (shapeCast S10000x1 (multiReduction (F := Ideal) .maximumf [1] S10000 s 0xFF800000#32 h hφ hmax) hc) hb)
        : FVec Ideal S10000x7 .f32) (ix2 p j) = s (ix2 p j) - Cert.Spec.rowMax fun j => s (ix2 p j) := fun j => by
    rw [subf_apply, Cert.LibKeepdims.broadcastTo_a1_ab_apply, Cert.LibKeepdims.shapeCast_a_a1_apply, laneMax_apply]
  unfold Cert.Spec.lsm
  rw [subf_apply, hshift, Cert.LibKeepdims.broadcastTo_a1_ab_apply]
  refine congrArg (fun z : EReal => (s (ix2 p q) - Cert.Spec.rowMax fun j => s (ix2 p j)) - z) ?_
  show Ideal.log (shapeCast S10000x1 _ hc (ix2 p (0 : Fin 1))) = _
  rw [Cert.LibKeepdims.shapeCast_a_a1_apply, laneSum_apply]
  refine congrArg Ideal.log (Finset.sum_congr rfl fun j _ => ?_)
  show Ideal.exp (_ : EReal) = _
  rw [hshift]

/-- THE BODY'S VALUE at row `p` and lane `q` of a grid point's blocks: the log-softmax, at lane `q`, of the row's
    seven combined scores. -/
theorem pay2_apply (x0 x1 : Vec Ideal S10000x7 .f32) (x2 : Vec Ideal S1x7 .f32) (p : Fin 10000) (q : Fin 7) :
    Gen.k2_pay1 x0 x1 x2 (ix2 p q)
      = Cert.Spec.lsm (fun j => (x0 (ix2 p j) + x1 (ix2 p j)) + x2 (ix2 (0 : Fin 1) j)) q := by
  unfold Gen.k2_pay1
  dsimp only
  refine (logSoftmax_apply _ _ _ _ _ _ _ p q).trans ?_
  exact congrArg (fun f => Cert.Spec.lsm f q) (funext fun j => scores_apply x0 x1 x2 _ _ _ _ p j)

/-! ## From the row blocks to the array -/

variable (V : (c : Dev nD) → (b : Ref sig .tc) → Buf (Elt Ideal) ((c : Thread nD τ).loc b)) (c : Dev nD)

theorem offsets_zero : (![0, 0] : Fin 2 → Nat) = fun _ => 0 := funext fun a => by fin_cases a <;> rfl

/-- The log-softmax, at class `q`, of row `p`'s seven combined scores: two score arrays' entries added, plus the bias row's. -/
def logSoftmaxRow (a0 a1 : S100000x7.Idx → EReal) (b : S1x7.Idx → EReal) (p : Fin 100000) (q : Fin 7) : EReal :=
  Cert.Spec.lsm (fun j => (a0 (ix2 p j) + a1 (ix2 p j)) + b (ix2 (0 : Fin 1) j)) q

/-- The same as an array: what the result array ends holding. -/
def lsmArray (a0 a1 : S100000x7.Idx → EReal) (b : S1x7.Idx → EReal) : S100000x7.Idx → EReal := fun i =>
  logSoftmaxRow a0 a1 b ⟨(i 0).val, idx2_lt0 i⟩ ⟨(i 1).val, idx2_lt1 i⟩

/-- The printed index maps, decided over the ten grid points: the two score windows and the result window are at row
    block `t`, lane block 0; the bias window stays at its one block. -/
theorem index_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The first score window's block at point `t` is rows `10000 t … 10000 t + 9999` of its array. -/
theorem block2_0_apply (t : Fin cfg2.N) (x : S10000x7.Idx) (k : S100000x7.Idx)
    (hk0 : (k 0).val = 10000 * t.val + (x 0).val) (hk1 : (k 1).val = (x 1).val) :
    (Gen.iblk2 V c 0 t : Vec Ideal S10000x7 .f32) x = (V c main_v32 : S100000x7.Idx → EReal) k := by
  obtain ⟨e0, e1, -⟩ := index_facts2 t
  unfold Gen.iblk2
  rw [View.read_apply]
  show V c main_v32 _ = V c main_v32 _
  congr 1
  funext a
  apply Fin.ext
  match a with
  | ⟨0, _⟩ => show win2_0.index t 0 * 10000 + 1 * (x 0).val = (k 0).val; rw [e0, hk0]; omega
  | ⟨1, _⟩ => show win2_0.index t 1 * 7 + 1 * (x 1).val = (k 1).val; rw [e1, hk1]; omega

/-- The second score window's block at point `t` is the same rows of its array. -/
theorem block2_1_apply (t : Fin cfg2.N) (x : S10000x7.Idx) (k : S100000x7.Idx)
    (hk0 : (k 0).val = 10000 * t.val + (x 0).val) (hk1 : (k 1).val = (x 1).val) :
    (Gen.iblk2 V c 1 t : Vec Ideal S10000x7 .f32) x = (V c main_v22 : S100000x7.Idx → EReal) k := by
  obtain ⟨-, -, e0, e1, -⟩ := index_facts2 t
  unfold Gen.iblk2
  rw [View.read_apply]
  show V c main_v22 _ = V c main_v22 _
  congr 1
  funext a
  apply Fin.ext
  match a with
  | ⟨0, _⟩ => show win2_1.index t 0 * 10000 + 1 * (x 0).val = (k 0).val; rw [e0, hk0]; omega
  | ⟨1, _⟩ => show win2_1.index t 1 * 7 + 1 * (x 1).val = (k 1).val; rw [e1, hk1]; omega

/-- The bias window's block at every point is its whole one-row array. -/
theorem block2_2_apply (t : Fin cfg2.N) (x : S1x7.Idx) :
    (Gen.iblk2 V c 2 t : Vec Ideal S1x7 .f32) x = (V c main_v33 : S1x7.Idx → EReal) x := by
  obtain ⟨-, -, -, -, e0, e1, -⟩ := index_facts2 t
  unfold Gen.iblk2
  rw [View.read_apply]
  show V c main_v33 _ = V c main_v33 _
  congr 1
  funext a
  apply Fin.ext
  match a with
  | ⟨0, _⟩ => show win2_2.index t 0 * 1 + 1 * (x 0).val = (x 0).val; rw [e0]; omega
  | ⟨1, _⟩ => show win2_2.index t 1 * 7 + 1 * (x 1).val = (x 1).val; rw [e1]; omega

/-- The body's value at row `p`, lane `q` of point `t`'s blocks, in the whole arrays' rows. -/
theorem point2_apply (t : Fin cfg2.N) (p : Fin 10000) (q : Fin 7) (r : Fin 100000) (hr : r.val = 10000 * t.val + p.val) :
    Gen.k2_pay1 (Gen.iblk2 V c 0 t) (Gen.iblk2 V c 1 t) (Gen.iblk2 V c 2 t) (ix2 p q)
      = logSoftmaxRow (V c main_v32) (V c main_v22) (V c main_v33) r q := by
  unfold logSoftmaxRow
  refine (pay2_apply _ _ _ p q).trans ?_
  refine congrArg (fun f => Cert.Spec.lsm f q) (funext fun j => ?_)
  rw [block2_0_apply V c t (ix2 p j) (ix2 r j) hr rfl, block2_1_apply V c t (ix2 p j) (ix2 r j) hr rfl,
    block2_2_apply V c t (ix2 (0 : Fin 1) j)]

/-- WHAT POINT `t` WRITES BACK is block `t` of the row-wise log-softmax of the whole arrays' combined scores. -/
theorem flushed2_eq (t : Fin cfg2.N) :
    (Gen.dat2 V c).flushed 3 t
      = ((cfg2.win 3).blk t).view.read (Elt Ideal) (lsmArray (V c main_v32) (V c main_v22) (V c main_v33)) := by
  show (cfg2.win 3).cut (grid2.coords t) ((Gen.dat2 V c).after 3 t) = _
  rw [Gen.after2_3]
  unfold Gen.out2_3
  rw [View.canon_unit_zero offsets_zero]
  simp only [View.ld_unit_zero (S := S10000x7) offsets_zero, View.ld_unit_zero (S := S1x7) offsets_zero]
  obtain ⟨-, -, -, -, -, -, e0, e1⟩ := index_facts2 t
  funext y
  have hy0 : (y 0).val < 10000 := (y 0).isLt
  have hy1 : (y 1).val < 7 := (y 1).isLt
  have hN : cfg2.N = 10 := Gen.N_2
  have ht : t.val < 10 := hN ▸ t.isLt
  have hx : (cfg2.win 3).xinj (grid2.coords t) y = ix2 (⟨(y 0).val, hy0⟩ : Fin 10000) (⟨(y 1).val, hy1⟩ : Fin 7) :=
    funext fun a => match a with | ⟨0, _⟩ => rfl | ⟨1, _⟩ => rfl
  show Gen.k2_pay1 (Gen.iblk2 V c 0 t) (Gen.iblk2 V c 1 t) (Gen.iblk2 V c 2 t) ((cfg2.win 3).xinj (grid2.coords t) y) = _
  rw [hx, View.read_apply]
  have hr0 : (((cfg2.win 3).blk t).view.emb y 0).val = 10000 * t.val + (y 0).val := by
    show win2_3.index t 0 * 10000 + 1 * (y 0).val = _; rw [e0]; omega
  have hr1 : (((cfg2.win 3).blk t).view.emb y 1).val = (y 1).val := by
    show win2_3.index t 1 * 7 + 1 * (y 1).val = _; rw [e1]; omega
  refine (point2_apply V c t _ _ ⟨10000 * t.val + (y 0).val, by omega⟩ rfl).trans ?_
  unfold lsmArray
  have eq : (⟨(y 1).val, hy1⟩ : Fin 7) = ⟨(((cfg2.win 3).blk t).view.emb y 1).val, idx2_lt1 _⟩ := Fin.ext hr1.symm
  have er : (⟨10000 * t.val + (y 0).val, by omega⟩ : Fin 100000) = ⟨(((cfg2.win 3).blk t).view.emb y 0).val, idx2_lt0 _⟩ := Fin.ext hr0.symm
  rw [eq, er]
  rfl

/-- An index of the array is in point `t`'s block iff each coordinate is in the block's range on its axis. -/
theorem mem_block2 (t : Fin cfg2.N) (i : S100000x7.Idx) :
    i ∈ ((cfg2.win 3).blk t).view.set ↔ ∀ a : Fin 2, win2_3.index t a * S10000x7.size a ≤ (i a).val
      ∧ (i a).val < win2_3.index t a * S10000x7.size a + S10000x7.size a := by
  show i ∈ ((View.whole main_v34).slice (win2_3.rect t)).set ↔ _
  rw [View.set_slice_whole, Rect.mem_set_unit]
  exact Iff.rfl

/-- The ten row blocks cover the array: row `r` is in the block of point `r / 10000`. -/
theorem cover2 (i : S100000x7.Idx) :
    ∃ t : Fin cfg2.N, (cfg2.win 3).flush t = true ∧ i ∈ ((cfg2.win 3).blk t).view.set := by
  have hi0 : (i 0).val < 100000 := (i 0).isLt
  have hi1 : (i 1).val < 7 := (i 1).isLt
  have hN : cfg2.N = 10 := Gen.N_2
  have ht : (i 0).val / 10000 < cfg2.N := by rw [hN]; omega
  obtain ⟨-, -, -, -, -, -, e0, e1⟩ := index_facts2 ⟨(i 0).val / 10000, ht⟩
  refine ⟨⟨(i 0).val / 10000, ht⟩, Gen.flush2_3 _, ?_⟩
  rw [mem_block2]
  intro a
  match a with
  | ⟨0, _⟩ =>
    show win2_3.index ⟨(i 0).val / 10000, ht⟩ 0 * 10000 ≤ (i 0).val ∧ (i 0).val < win2_3.index ⟨(i 0).val / 10000, ht⟩ 0 * 10000 + 10000
    rw [e0]; show (i 0).val / 10000 * 10000 ≤ (i 0).val ∧ (i 0).val < (i 0).val / 10000 * 10000 + 10000; omega
  | ⟨1, _⟩ =>
    show win2_3.index ⟨(i 0).val / 10000, ht⟩ 1 * 7 ≤ (i 1).val ∧ (i 1).val < win2_3.index ⟨(i 0).val / 10000, ht⟩ 1 * 7 + 7
    rw [e1]; omega

/-- THE RESULT ARRAY after the region: the row-wise log-softmax of the combined scores. -/
theorem arr2_eq : (Gen.dat2 V c).arrAt 3 cfg2.N = lsmArray (V c main_v32) (V c main_v22) (V c main_v33) :=
  (Gen.dat2 V c).arrAt_eq_of_cover 3 _ (fun t _ => flushed2_eq V c t) cover2

/-- The result array at row `p` and class `q`. -/
theorem arr2_apply (p : Fin 100000) (q : Fin 7) :
    (Gen.dat2 V c).arrAt 3 cfg2.N (ix2 p q)
      = logSoftmaxRow (V c main_v32) (V c main_v22) (V c main_v33) p q := by
  rw [arr2_eq]
  rfl

end Cert.KernelIdeal.Blocks

end
-- ==== Proof.KClosed.lean ====
/-
  The three launches' closed forms, supplied: each launch's output array at an index is the matrix product, the
  activated matrix product, and the row-wise log-softmax that `KValue` composes, so the kernel program's result array
  is `Fold.value` of its arguments.
-/
import proofs.«109476_j62173946577413_1_alg».proof.Proof.KValue
import proofs.«109476_j62173946577413_1_alg».proof.Proof.Region0
import proofs.«109476_j62173946577413_1_alg».proof.Proof.Region1
import proofs.«109476_j62173946577413_1_alg».proof.Proof.Region2

noncomputable section

namespace Cert.KernelIdeal.Fold

open Cert.KernelIdeal Cert.KernelIdeal.Gen
open Idealize.ShloMosaic Idealize.ShloMosaic.TcCoe Idealize.SL.Sem
open Idealize.ShloMosaic.ValueIdx

/-- Each launch's output array, at an index, is its whole-array function of the arrays it was entered with. -/
theorem closed : Closed where
  arr0 := fun V c p q => (Cert.KernelIdeal.Blocks.arr0_apply V c p q).trans rfl
  arr1 := fun V c p q => (Cert.KernelIdeal.Blocks.arr1_apply V c p q).trans rfl
  arr2 := fun V c p q => (Cert.KernelIdeal.Blocks.arr2_apply V c p q).trans rfl

/-- The kernel program's result array, when it returns, as a function of the arguments' launch contents. -/
theorem result_eq (m : (ℓ : Loc nD τ sig) → Buf (Elt Ideal) ℓ) (ρ : Dev nD → PrngReg) (c : Dev nD) :
    W6 m ρ c (Proc.devRef .tc main_v34)
      = value (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) :=
  W6_value m ρ c closed

end Cert.KernelIdeal.Fold

end
-- ==== Proof.RefRun.lean ====
/-
  The reference program's @main as a straight line of host operations, and its run.

  @main calls two module-local functions: the exponential linear unit (which itself calls the two select helpers) and the
  row-wise log-softmax.  A call means the callee's body run on the operands over the call's own buffers, so with the
  callees' operations written at their call sites @main is one line of seventy-two operations.  They are listed in four
  stretches: the first graph convolution (edge-index preparation, gather, scatter-add, bias, root term), the exponential
  linear unit, the second graph convolution, and the log-softmax.  A straight line of host operations run from any memory
  with zero counters terminates with every buffer at the fold of the operations' results over its launch contents.
-/
import proofs.«109476_j62173946577413_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The first graph convolution: the two rows of the edge index, the neighbour product, the gather start column (negative
    entries wrapped), the gather, the scatter-add into zeros, the bias and the root product. -/
abbrev opsConv1 : List (HloOp τ sig (Elt F)) :=
  [ StableHlo.unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v0 main_v1 rfl shapeCasts_S1x3200000_S3200000,
    StableHlo.unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v2 main_v3 rfl shapeCasts_S1x3200000_S3200000,
    StableHlo.binary main_arg0 main_arg3 main_v4 ((fun l r => Host.dotGeneral dot_S100000x1433_S1433x16_S100000x16_1_0_0_1_n_n none l r) : (⟨S100000x1433, .f32⟩ : BufTy).Contents (Elt F) → (⟨S1433x16, .f32⟩ : BufTy).Contents (Elt F) → (⟨S100000x16, .f32⟩ : BufTy).Contents (Elt F)),
    StableHlo.nullary main_c (constantI S_ 32 0#32),
    StableHlo.unary main_c main_v5 (broadcastInDim S3200000 ![] bcast_S_S3200000 : (⟨S_, .i32⟩ : BufTy).Contents (Elt F) → (⟨S3200000, .i32⟩ : BufTy).Contents (Elt F)),
    StableHlo.binary main_v1 main_v5 main_v6 (cmpi .slt : (⟨S3200000, .i32⟩ : BufTy).Contents (Elt F) → (⟨S3200000, .i32⟩ : BufTy).Contents (Elt F) → (⟨S3200000, .i1⟩ : BufTy).Contents (Elt F)),
    StableHlo.nullary main_c_0 (constantI S_ 32 100000#32),
    StableHlo.unary main_c_0 main_v7 (broadcastInDim S3200000 ![] bcast_S_S3200000 : (⟨S_, .i32⟩ : BufTy).Contents (Elt F) → (⟨S3200000, .i32⟩ : BufTy).Contents (Elt F)),
    StableHlo.binary main_v1 main_v7 main_v8 (addi : (⟨S3200000, .i32⟩ : BufTy).Contents (Elt F) → (⟨S3200000, .i32⟩ : BufTy).Contents (Elt F) → (⟨S3200000, .i32⟩ : BufTy).Contents (Elt F)),
    StableHlo.ternary main_v6 main_v8 main_v1 main_v9 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v9 main_v10 (broadcastInDim S3200000x1 ![0] bcast_S3200000_S3200000x1_0 : (⟨S3200000, .i32⟩ : BufTy).Contents (Elt F) → (⟨S3200000x1, .i32⟩ : BufTy).Contents (Elt F)),
    StableHlo.binary main_v4 main_v10 main_v11 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    StableHlo.nullary main_cst (constant S_ .f32 0x00000000#32),
    StableHlo.unary main_cst main_v12 (broadcastInDim S100000x16 ![] bcast_S_S100000x16 : (⟨S_, .f32⟩ : BufTy).Contents (Elt F) → (⟨S100000x16, .f32⟩ : BufTy).Contents (Elt F)),
    StableHlo.unary main_v3 main_v13 (broadcastInDim S3200000x1 ![0] bcast_S3200000_S3200000x1_0 : (⟨S3200000, .i32⟩ : BufTy).Contents (Elt F) → (⟨S3200000x1, .i32⟩ : BufTy).Contents (Elt F)),
    StableHlo.ternary main_v12 main_v13 main_v11 main_v14 ((fun x i u => Host.scatterAdd scatter_S100000x16_S3200000x1_S3200000x16_1_0_0_1 x i u) : (⟨S100000x16, .f32⟩ : BufTy).Contents (Elt F) → (⟨S3200000x1, .i32⟩ : BufTy).Contents (Elt F) → (⟨S3200000x16, .f32⟩ : BufTy).Contents (Elt F) → (⟨S100000x16, .f32⟩ : BufTy).Contents (Elt F)),
    StableHlo.unary main_arg4 main_v15 (broadcastInDim S1x16 ![1] bcast_S16_S1x16_1 : (⟨S16, .f32⟩ : BufTy).Contents (Elt F) → (⟨S1x16, .f32⟩ : BufTy).Contents (Elt F)),
    StableHlo.unary main_v15 main_v16 (broadcastInDim S100000x16 ![0, 1] bcast_S1x16_S100000x16_0_1 : (⟨S1x16, .f32⟩ : BufTy).Contents (Elt F) → (⟨S100000x16, .f32⟩ : BufTy).Contents (Elt F)),
    StableHlo.binary main_v14 main_v16 main_v17 (addf : (⟨S100000x16, .f32⟩ : BufTy).Contents (Elt F) → (⟨S100000x16, .f32⟩ : BufTy).Contents (Elt F) → (⟨S100000x16, .f32⟩ : BufTy).Contents (Elt F)),
    StableHlo.binary main_arg0 main_arg2 main_v18 ((fun l r => Host.dotGeneral dot_S100000x1433_S1433x16_S100000x16_1_0_0_1_n_n none l r) : (⟨S100000x1433, .f32⟩ : BufTy).Contents (Elt F) → (⟨S1433x16, .f32⟩ : BufTy).Contents (Elt F) → (⟨S100000x16, .f32⟩ : BufTy).Contents (Elt F)),
    StableHlo.binary main_v17 main_v18 main_v19 (addf : (⟨S100000x16, .f32⟩ : BufTy).Contents (Elt F) → (⟨S100000x16, .f32⟩ : BufTy).Contents (Elt F) → (⟨S100000x16, .f32⟩ : BufTy).Contents (Elt F)) ]

/-- The exponential linear unit, its two select helpers' operations at their call sites. -/
abbrev opsElu : List (HloOp τ sig (Elt F)) :=
  [ StableHlo.TRef.nullary main_call0.cst (constant S_ .f32 0x00000000#32),
    StableHlo.TRef.unary main_call0.cst main_call0.v0 (broadcastInDim S100000x16 ![] bcast_S_S100000x16),
    StableHlo.TRef.binary (.of main_v19 : StableHlo.TRef sig ⟨S100000x16, .f32⟩) main_call0.v0 main_call0.v1 (cmpf .ogt),
    StableHlo.TRef.nullary main_call0.cst_0 (constant S_ .f32 0x00000000#32),
    StableHlo.TRef.unary main_call0.cst_0 main_call0.v2 (broadcastInDim S100000x16 ![] bcast_S_S100000x16),
    StableHlo.TRef.binary (.of main_v19 : StableHlo.TRef sig ⟨S100000x16, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S100000x16 ![] bcast_S_S100000x16),
    StableHlo.TRef.ternary main_call0.v3 main_call0.call0.v1 (.of main_v19 : StableHlo.TRef sig ⟨S100000x16, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S100000x16 ![] bcast_S_S100000x16),
    StableHlo.TRef.binary main_call0.v6 main_call0.v5 main_call0.v7 mulf,
    StableHlo.TRef.ternary main_call0.v1 (.of main_v19 : StableHlo.TRef sig ⟨S100000x16, .f32⟩) main_call0.v7 main_call0.call1.v0 select ]

/-- The second graph convolution, over the same two rows of the edge index. -/
abbrev opsConv2 : List (HloOp τ sig (Elt F)) :=
  [ StableHlo.binary main_v20 main_arg6 main_v21 ((fun l r => Host.dotGeneral dot_S100000x16_S16x7_S100000x7_1_0_0_1_n_n none l r) : (⟨S100000x16, .f32⟩ : BufTy).Contents (Elt F) → (⟨S16x7, .f32⟩ : BufTy).Contents (Elt F) → (⟨S100000x7, .f32⟩ : BufTy).Contents (Elt F)),
    StableHlo.nullary main_c_1 (constantI S_ 32 0#32),
    StableHlo.unary main_c_1 main_v22 (broadcastInDim S3200000 ![] bcast_S_S3200000 : (⟨S_, .i32⟩ : BufTy).Contents (Elt F) → (⟨S3200000, .i32⟩ : BufTy).Contents (Elt F)),
    StableHlo.binary main_v1 main_v22 main_v23 (cmpi .slt : (⟨S3200000, .i32⟩ : BufTy).Contents (Elt F) → (⟨S3200000, .i32⟩ : BufTy).Contents (Elt F) → (⟨S3200000, .i1⟩ : BufTy).Contents (Elt F)),
    StableHlo.nullary main_c_2 (constantI S_ 32 100000#32),
    StableHlo.unary main_c_2 main_v24 (broadcastInDim S3200000 ![] bcast_S_S3200000 : (⟨S_, .i32⟩ : BufTy).Contents (Elt F) → (⟨S3200000, .i32⟩ : BufTy).Contents (Elt F)),
    StableHlo.binary main_v1 main_v24 main_v25 (addi : (⟨S3200000, .i32⟩ : BufTy).Contents (Elt F) → (⟨S3200000, .i32⟩ : BufTy).Contents (Elt F) → (⟨S3200000, .i32⟩ : BufTy).Contents (Elt F)),
    StableHlo.ternary main_v23 main_v25 main_v1 main_v26 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v26 main_v27 (broadcastInDim S3200000x1 ![0] bcast_S3200000_S3200000x1_0 : (⟨S3200000, .i32⟩ : BufTy).Contents (Elt F) → (⟨S3200000x1, .i32⟩ : BufTy).Contents (Elt F)),
    StableHlo.binary main_v21 main_v27 main_v28 ((fun x i => Host.gather gather_S100000x7_S3200000x1_S3200000x7_1_0_n_n_0_1_17 x i) : (⟨S100000x7, .f32⟩ : BufTy).Contents (Elt F) → (⟨S3200000x1, .i32⟩ : BufTy).Contents (Elt F) → (⟨S3200000x7, .f32⟩ : BufTy).Contents (Elt F)),
    StableHlo.nullary main_cst_3 (constant S_ .f32 0x00000000#32),
    StableHlo.unary main_cst_3 main_v29 (broadcastInDim S100000x7 ![] bcast_S_S100000x7 : (⟨S_, .f32⟩ : BufTy).Contents (Elt F) → (⟨S100000x7, .f32⟩ : BufTy).Contents (Elt F)),
    StableHlo.unary main_v3 main_v30 (broadcastInDim S3200000x1 ![0] bcast_S3200000_S3200000x1_0 : (⟨S3200000, .i32⟩ : BufTy).Contents (Elt F) → (⟨S3200000x1, .i32⟩ : BufTy).Contents (Elt F)),
    StableHlo.ternary main_v29 main_v30 main_v28 main_v31 ((fun x i u => Host.scatterAdd scatter_S100000x7_S3200000x1_S3200000x7_1_0_0_1 x i u) : (⟨S100000x7, .f32⟩ : BufTy).Contents (Elt F) → (⟨S3200000x1, .i32⟩ : BufTy).Contents (Elt F) → (⟨S3200000x7, .f32⟩ : BufTy).Contents (Elt F) → (⟨S100000x7, .f32⟩ : BufTy).Contents (Elt F)),
    StableHlo.unary main_arg7 main_v32 (broadcastInDim S1x7 ![1] bcast_S7_S1x7_1 : (⟨S7, .f32⟩ : BufTy).Contents (Elt F) → (⟨S1x7, .f32⟩ : BufTy).Contents (Elt F)),
    StableHlo.unary main_v32 main_v33 (broadcastInDim S100000x7 ![0, 1] bcast_S1x7_S100000x7_0_1 : (⟨S1x7, .f32⟩ : BufTy).Contents (Elt F) → (⟨S100000x7, .f32⟩ : BufTy).Contents (Elt F)),
    StableHlo.binary main_v31 main_v33 main_v34 (addf : (⟨S100000x7, .f32⟩ : BufTy).Contents (Elt F) → (⟨S100000x7, .f32⟩ : BufTy).Contents (Elt F) → (⟨S100000x7, .f32⟩ : BufTy).Contents (Elt F)),
    StableHlo.binary main_v20 main_arg5 main_v35 ((fun l r => Host.dotGeneral dot_S100000x16_S16x7_S100000x7_1_0_0_1_n_n none l r) : (⟨S100000x16, .f32⟩ : BufTy).Contents (Elt F) → (⟨S16x7, .f32⟩ : BufTy).Contents (Elt F) → (⟨S100000x7, .f32⟩ : BufTy).Contents (Elt F)),
    StableHlo.binary main_v34 main_v35 main_v36 (addf : (⟨S100000x7, .f32⟩ : BufTy).Contents (Elt F) → (⟨S100000x7, .f32⟩ : BufTy).Contents (Elt F) → (⟨S100000x7, .f32⟩ : BufTy).Contents (Elt F)) ]

/-- The row-wise log-softmax. -/
abbrev opsLsm : List (HloOp τ sig (Elt F)) :=
  [ StableHlo.TRef.nullary main_call1.cst (constant S_ .f32 0xFF800000#32),
    StableHlo.TRef.binary (.of main_v36 : StableHlo.TRef sig ⟨S100000x7, .f32⟩) main_call1.cst main_call1.v0 (fun x v => Host.reduce FloatOps.maximumf x v reducesTo_S100000x7_S100000_d1 h_S_),
    StableHlo.TRef.nullary main_call1.cst_0 (constant S_ .f32 0xFF800000#32),
    StableHlo.TRef.unary main_call1.cst_0 main_call1.v1 (broadcastInDim S100000 ![] bcast_S_S100000),
    StableHlo.TRef.binary main_call1.v1 main_call1.v0 main_call1.v2 maximumf,
    StableHlo.TRef.unary main_call1.v2 main_call1.v3 (broadcastInDim S100000x1 ![0] bcast_S100000_S100000x1_0),
    StableHlo.TRef.unary main_call1.v3 main_call1.v4 (broadcastInDim S100000x7 ![0, 1] bcast_S100000x1_S100000x7_0_1),
    StableHlo.TRef.binary (.of main_v36 : StableHlo.TRef sig ⟨S100000x7, .f32⟩) main_call1.v4 main_call1.v5 subf,
    StableHlo.TRef.unary main_call1.v5 main_call1.v6 Host.exp,
    StableHlo.TRef.nullary main_call1.cst_1 (constant S_ .f32 0x00000000#32),
    StableHlo.TRef.binary main_call1.v6 main_call1.cst_1 main_call1.v7 (fun x v => Host.reduceAdd x v reducesTo_S100000x7_S100000_d1 h_S_),
    StableHlo.TRef.unary main_call1.v7 main_call1.v8 (broadcastInDim S100000x1 ![0] bcast_S100000_S100000x1_0),
    StableHlo.TRef.unary main_call1.v8 main_call1.v9 Host.log,
    StableHlo.TRef.unary main_call1.v9 main_call1.v10 (broadcastInDim S100000x7 ![0, 1] bcast_S100000x1_S100000x7_0_1),
    StableHlo.TRef.binary main_call1.v5 main_call1.v10 main_call1.v11 subf ]

/-- @main's seventy-two operations, in order, the calls unfolded. -/
abbrev ops : List (HloOp τ sig (Elt F)) :=
  [ StableHlo.unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v0 main_v1 rfl shapeCasts_S1x3200000_S3200000,
    StableHlo.unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v2 main_v3 rfl shapeCasts_S1x3200000_S3200000,
    StableHlo.binary main_arg0 main_arg3 main_v4 ((fun l r => Host.dotGeneral dot_S100000x1433_S1433x16_S100000x16_1_0_0_1_n_n none l r) : (⟨S100000x1433, .f32⟩ : BufTy).Contents (Elt F) → (⟨S1433x16, .f32⟩ : BufTy).Contents (Elt F) → (⟨S100000x16, .f32⟩ : BufTy).Contents (Elt F)),
    StableHlo.nullary main_c (constantI S_ 32 0#32),
    StableHlo.unary main_c main_v5 (broadcastInDim S3200000 ![] bcast_S_S3200000 : (⟨S_, .i32⟩ : BufTy).Contents (Elt F) → (⟨S3200000, .i32⟩ : BufTy).Contents (Elt F)),
    StableHlo.binary main_v1 main_v5 main_v6 (cmpi .slt : (⟨S3200000, .i32⟩ : BufTy).Contents (Elt F) → (⟨S3200000, .i32⟩ : BufTy).Contents (Elt F) → (⟨S3200000, .i1⟩ : BufTy).Contents (Elt F)),
    StableHlo.nullary main_c_0 (constantI S_ 32 100000#32),
    StableHlo.unary main_c_0 main_v7 (broadcastInDim S3200000 ![] bcast_S_S3200000 : (⟨S_, .i32⟩ : BufTy).Contents (Elt F) → (⟨S3200000, .i32⟩ : BufTy).Contents (Elt F)),
    StableHlo.binary main_v1 main_v7 main_v8 (addi : (⟨S3200000, .i32⟩ : BufTy).Contents (Elt F) → (⟨S3200000, .i32⟩ : BufTy).Contents (Elt F) → (⟨S3200000, .i32⟩ : BufTy).Contents (Elt F)),
    StableHlo.ternary main_v6 main_v8 main_v1 main_v9 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v9 main_v10 (broadcastInDim S3200000x1 ![0] bcast_S3200000_S3200000x1_0 : (⟨S3200000, .i32⟩ : BufTy).Contents (Elt F) → (⟨S3200000x1, .i32⟩ : BufTy).Contents (Elt F)),
    StableHlo.binary main_v4 main_v10 main_v11 ((fun x i => Host.gather gather_S100000x16_S3200000x1_S3200000x16_1_0_n_n_0_1_116 x i) : (⟨S100000x16, .f32⟩ : BufTy).Contents (Elt F) → (⟨S3200000x1, .i32⟩ : BufTy).Contents (Elt F) → (⟨S3200000x16, .f32⟩ : BufTy).Contents (Elt F)),
    StableHlo.nullary main_cst (constant S_ .f32 0x00000000#32),
    StableHlo.unary main_cst main_v12 (broadcastInDim S100000x16 ![] bcast_S_S100000x16 : (⟨S_, .f32⟩ : BufTy).Contents (Elt F) → (⟨S100000x16, .f32⟩ : BufTy).Contents (Elt F)),
    StableHlo.unary main_v3 main_v13 (broadcastInDim S3200000x1 ![0] bcast_S3200000_S3200000x1_0 : (⟨S3200000, .i32⟩ : BufTy).Contents (Elt F) → (⟨S3200000x1, .i32⟩ : BufTy).Contents (Elt F)),
    StableHlo.ternary main_v12 main_v13 main_v11 main_v14 ((fun x i u => Host.scatterAdd scatter_S100000x16_S3200000x1_S3200000x16_1_0_0_1 x i u) : (⟨S100000x16, .f32⟩ : BufTy).Contents (Elt F) → (⟨S3200000x1, .i32⟩ : BufTy).Contents (Elt F) → (⟨S3200000x16, .f32⟩ : BufTy).Contents (Elt F) → (⟨S100000x16, .f32⟩ : BufTy).Contents (Elt F)),
    StableHlo.unary main_arg4 main_v15 (broadcastInDim S1x16 ![1] bcast_S16_S1x16_1 : (⟨S16, .f32⟩ : BufTy).Contents (Elt F) → (⟨S1x16, .f32⟩ : BufTy).Contents (Elt F)),
    StableHlo.unary main_v15 main_v16 (broadcastInDim S100000x16 ![0, 1] bcast_S1x16_S100000x16_0_1 : (⟨S1x16, .f32⟩ : BufTy).Contents (Elt F) → (⟨S100000x16, .f32⟩ : BufTy).Contents (Elt F)),
    StableHlo.binary main_v14 main_v16 main_v17 (addf : (⟨S100000x16, .f32⟩ : BufTy).Contents (Elt F) → (⟨S100000x16, .f32⟩ : BufTy).Contents (Elt F) → (⟨S100000x16, .f32⟩ : BufTy).Contents (Elt F)),
    StableHlo.binary main_arg0 main_arg2 main_v18 ((fun l r => Host.dotGeneral dot_S100000x1433_S1433x16_S100000x16_1_0_0_1_n_n none l r) : (⟨S100000x1433, .f32⟩ : BufTy).Contents (Elt F) → (⟨S1433x16, .f32⟩ : BufTy).Contents (Elt F) → (⟨S100000x16, .f32⟩ : BufTy).Contents (Elt F)),
    StableHlo.binary main_v17 main_v18 main_v19 (addf : (⟨S100000x16, .f32⟩ : BufTy).Contents (Elt F) → (⟨S100000x16, .f32⟩ : BufTy).Contents (Elt F) → (⟨S100000x16, .f32⟩ : BufTy).Contents (Elt F)),
    StableHlo.TRef.nullary main_call0.cst (constant S_ .f32 0x00000000#32),
    StableHlo.TRef.unary main_call0.cst main_call0.v0 (broadcastInDim S100000x16 ![] bcast_S_S100000x16),
    StableHlo.TRef.binary (.of main_v19 : StableHlo.TRef sig ⟨S100000x16, .f32⟩) main_call0.v0 main_call0.v1 (cmpf .ogt),
    StableHlo.TRef.nullary main_call0.cst_0 (constant S_ .f32 0x00000000#32),
    StableHlo.TRef.unary main_call0.cst_0 main_call0.v2 (broadcastInDim S100000x16 ![] bcast_S_S100000x16),
    StableHlo.TRef.binary (.of main_v19 : StableHlo.TRef sig ⟨S100000x16, .f32⟩) main_call0.v2 main_call0.v3 (cmpf .ogt),
    StableHlo.TRef.nullary main_call0.cst_1 (constant S_ .f32 0x00000000#32),
    StableHlo.TRef.unary main_call0.cst_1 main_call0.call0.v0 id,
    StableHlo.TRef.unary main_call0.call0.v0 main_call0.call0.v1 (broadcastInDim S100000x16 ![] bcast_S_S100000x16),
    StableHlo.TRef.ternary main_call0.v3 main_call0.call0.v1 (.of main_v19 : StableHlo.TRef sig ⟨S100000x16, .f32⟩) main_call0.call0.v2 select,
    StableHlo.TRef.unary main_call0.call0.v2 main_call0.v5 Host.expm1,
    StableHlo.TRef.nullary main_call0.cst_2 (constant S_ .f32 0x3F800000#32),
    StableHlo.TRef.unary main_call0.cst_2 main_call0.v6 (broadcastInDim S100000x16 ![] bcast_S_S100000x16),
    StableHlo.TRef.binary main_call0.v6 main_call0.v5 main_call0.v7 mulf,
    StableHlo.TRef.ternary main_call0.v1 (.of main_v19 : StableHlo.TRef sig ⟨S100000x16, .f32⟩) main_call0.v7 main_call0.call1.v0 select,
    StableHlo.binary main_v20 main_arg6 main_v21 ((fun l r => Host.dotGeneral dot_S100000x16_S16x7_S100000x7_1_0_0_1_n_n none l r) : (⟨S100000x16, .f32⟩ : BufTy).Contents (Elt F) → (⟨S16x7, .f32⟩ : BufTy).Contents (Elt F) → (⟨S100000x7, .f32⟩ : BufTy).Contents (Elt F)),
    StableHlo.nullary main_c_1 (constantI S_ 32 0#32),
    StableHlo.unary main_c_1 main_v22 (broadcastInDim S3200000 ![] bcast_S_S3200000 : (⟨S_, .i32⟩ : BufTy).Contents (Elt F) → (⟨S3200000, .i32⟩ : BufTy).Contents (Elt F)),
    StableHlo.binary main_v1 main_v22 main_v23 (cmpi .slt : (⟨S3200000, .i32⟩ : BufTy).Contents (Elt F) → (⟨S3200000, .i32⟩ : BufTy).Contents (Elt F) → (⟨S3200000, .i1⟩ : BufTy).Contents (Elt F)),
    StableHlo.nullary main_c_2 (constantI S_ 32 100000#32),
    StableHlo.unary main_c_2 main_v24 (broadcastInDim S3200000 ![] bcast_S_S3200000 : (⟨S_, .i32⟩ : BufTy).Contents (Elt F) → (⟨S3200000, .i32⟩ : BufTy).Contents (Elt F)),
    StableHlo.binary main_v1 main_v24 main_v25 (addi : (⟨S3200000, .i32⟩ : BufTy).Contents (Elt F) → (⟨S3200000, .i32⟩ : BufTy).Contents (Elt F) → (⟨S3200000, .i32⟩ : BufTy).Contents (Elt F)),
    StableHlo.ternary main_v23 main_v25 main_v1 main_v26 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v26 main_v27 (broadcastInDim S3200000x1 ![0] bcast_S3200000_S3200000x1_0 : (⟨S3200000, .i32⟩ : BufTy).Contents (Elt F) → (⟨S3200000x1, .i32⟩ : BufTy).Contents (Elt F)),
    StableHlo.binary main_v21 main_v27 main_v28 ((fun x i => Host.gather gather_S100000x7_S3200000x1_S3200000x7_1_0_n_n_0_1_17 x i) : (⟨S100000x7, .f32⟩ : BufTy).Contents (Elt F) → (⟨S3200000x1, .i32⟩ : BufTy).Contents (Elt F) → (⟨S3200000x7, .f32⟩ : BufTy).Contents (Elt F)),
    StableHlo.nullary main_cst_3 (constant S_ .f32 0x00000000#32),
    StableHlo.unary main_cst_3 main_v29 (broadcastInDim S100000x7 ![] bcast_S_S100000x7 : (⟨S_, .f32⟩ : BufTy).Contents (Elt F) → (⟨S100000x7, .f32⟩ : BufTy).Contents (Elt F)),
    StableHlo.unary main_v3 main_v30 (broadcastInDim S3200000x1 ![0] bcast_S3200000_S3200000x1_0 : (⟨S3200000, .i32⟩ : BufTy).Contents (Elt F) → (⟨S3200000x1, .i32⟩ : BufTy).Contents (Elt F)),
    StableHlo.ternary main_v29 main_v30 main_v28 main_v31 ((fun x i u => Host.scatterAdd scatter_S100000x7_S3200000x1_S3200000x7_1_0_0_1 x i u) : (⟨S100000x7, .f32⟩ : BufTy).Contents (Elt F) → (⟨S3200000x1, .i32⟩ : BufTy).Contents (Elt F) → (⟨S3200000x7, .f32⟩ : BufTy).Contents (Elt F) → (⟨S100000x7, .f32⟩ : BufTy).Contents (Elt F)),
    StableHlo.unary main_arg7 main_v32 (broadcastInDim S1x7 ![1] bcast_S7_S1x7_1 : (⟨S7, .f32⟩ : BufTy).Contents (Elt F) → (⟨S1x7, .f32⟩ : BufTy).Contents (Elt F)),
    StableHlo.unary main_v32 main_v33 (broadcastInDim S100000x7 ![0, 1] bcast_S1x7_S100000x7_0_1 : (⟨S1x7, .f32⟩ : BufTy).Contents (Elt F) → (⟨S100000x7, .f32⟩ : BufTy).Contents (Elt F)),
    StableHlo.binary main_v31 main_v33 main_v34 (addf : (⟨S100000x7, .f32⟩ : BufTy).Contents (Elt F) → (⟨S100000x7, .f32⟩ : BufTy).Contents (Elt F) → (⟨S100000x7, .f32⟩ : BufTy).Contents (Elt F)),
    StableHlo.binary main_v20 main_arg5 main_v35 ((fun l r => Host.dotGeneral dot_S100000x16_S16x7_S100000x7_1_0_0_1_n_n none l r) : (⟨S100000x16, .f32⟩ : BufTy).Contents (Elt F) → (⟨S16x7, .f32⟩ : BufTy).Contents (Elt F) → (⟨S100000x7, .f32⟩ : BufTy).Contents (Elt F)),
    StableHlo.binary main_v34 main_v35 main_v36 (addf : (⟨S100000x7, .f32⟩ : BufTy).Contents (Elt F) → (⟨S100000x7, .f32⟩ : BufTy).Contents (Elt F) → (⟨S100000x7, .f32⟩ : BufTy).Contents (Elt F)),
    StableHlo.TRef.nullary main_call1.cst (constant S_ .f32 0xFF800000#32),
    StableHlo.TRef.binary (.of main_v36 : StableHlo.TRef sig ⟨S100000x7, .f32⟩) main_call1.cst main_call1.v0 (fun x v => Host.reduce FloatOps.maximumf x v reducesTo_S100000x7_S100000_d1 h_S_),
    StableHlo.TRef.nullary main_call1.cst_0 (constant S_ .f32 0xFF800000#32),
    StableHlo.TRef.unary main_call1.cst_0 main_call1.v1 (broadcastInDim S100000 ![] bcast_S_S100000),
    StableHlo.TRef.binary main_call1.v1 main_call1.v0 main_call1.v2 maximumf,
    StableHlo.TRef.unary main_call1.v2 main_call1.v3 (broadcastInDim S100000x1 ![0] bcast_S100000_S100000x1_0),
    StableHlo.TRef.unary main_call1.v3 main_call1.v4 (broadcastInDim S100000x7 ![0, 1] bcast_S100000x1_S100000x7_0_1),
    StableHlo.TRef.binary (.of main_v36 : StableHlo.TRef sig ⟨S100000x7, .f32⟩) main_call1.v4 main_call1.v5 subf,
    StableHlo.TRef.unary main_call1.v5 main_call1.v6 Host.exp,
    StableHlo.TRef.nullary main_call1.cst_1 (constant S_ .f32 0x00000000#32),
    StableHlo.TRef.binary main_call1.v6 main_call1.cst_1 main_call1.v7 (fun x v => Host.reduceAdd x v reducesTo_S100000x7_S100000_d1 h_S_),
    StableHlo.TRef.unary main_call1.v7 main_call1.v8 (broadcastInDim S100000x1 ![0] bcast_S100000_S100000x1_0),
    StableHlo.TRef.unary main_call1.v8 main_call1.v9 Host.log,
    StableHlo.TRef.unary main_call1.v9 main_call1.v10 (broadcastInDim S100000x7 ![0, 1] bcast_S100000x1_S100000x7_0_1),
    StableHlo.TRef.binary main_call1.v5 main_call1.v10 main_call1.v11 subf ]

/-- The line is its four stretches one after the other. -/
theorem ops_eq : (ops : List (HloOp τ sig (Elt F))) = opsConv1 ++ (opsElu ++ (opsConv2 ++ opsLsm)) := rfl

/-- @main is that straight line: a call is its callee's body on the operands, and sequencing a step before a rest of the
    program is the step continued by the rest, so with the functions' definitions unfolded at their calls and the records
    at their fields both sides compute to one chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., unary_bufs_sub .., ternary_bufs_sub ..,
    unary_bufs_sub .., unary_bufs_sub .., binary_bufs_sub .., binary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., unary_bufs_sub .., unary_bufs_sub ..,
    binary_bufs_sub .., binary_bufs_sub .., binary_bufs_sub .., nullary_bufs_sub .., binary_bufs_sub .., nullary_bufs_sub ..,
    unary_bufs_sub .., binary_bufs_sub .., unary_bufs_sub .., unary_bufs_sub .., binary_bufs_sub .., unary_bufs_sub ..,
    nullary_bufs_sub .., binary_bufs_sub .., unary_bufs_sub .., unary_bufs_sub .., unary_bufs_sub .., binary_bufs_sub ..⟩

/-- At the compiled mesh, for any float values, from any memory with zero counters: every weakly fair execution of @main on
    the TensorCores terminates, and every final state has each TensorCore buffer at the operations' fold over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.HandRun

end
-- ==== Proof.LibAfterAppend.lean ====
/-
  A line of host operations run in two stretches: the buffer contents after `l₁ ++ l₂` are the contents after `l₂` started
  from the contents after `l₁`. (Each operation rewrites the buffers it writes and leaves the rest, so running a list is a
  left fold, and a left fold over an append is the fold over the second list from the fold over the first.) It lets a
  long straight-line program be read stage by stage, the contents after an earlier stretch carried as one opaque value.
-/
import Idealize.ShloMosaic.Lib.StableHlo.Run

namespace Cert.Lib

open Idealize.ShloMosaic Idealize.ShloMosaic.StableHlo

/-- Running `l₁ ++ l₂` from `V` is running `l₂` from what `l₁` leaves. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Cert.Lib
-- ==== Proof.RefValue.lean ====
/-
  What the reference program computes, stage by stage.

  The reference is a two-layer graph convolution over an edge list with an exponential linear unit between the layers
  and a row-wise log-softmax after them.  Each stage is one definition over whole arrays: the gather start column and
  the scatter index column read off the two rows of the edge index; the neighbour sum of a feature array (rows gathered
  at the sources and added into zeros at the destinations); a convolution (the neighbour sum of the product with the
  neighbour weights, plus the bias, plus the product with the root weights); the exponential linear unit; the
  log-softmax.  The straight line of operations is read one stretch at a time: the buffer contents after a line run in
  two stretches are the contents after the second started from the contents after the first, so each stretch is read
  from an arbitrary starting valuation and the results are chained.
-/
import proofs.«109476_j62173946577413_1_alg».proof.Proof.RefRun
import proofs.«109476_j62173946577413_1_alg».proof.Proof.LibAfterAppend

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## The stages -/

/-- Row 0 of the edge index (the edges' sources), as a vector. -/
def row0 (ei : IVec S2x3200000 32) : IVec S3200000 32 :=
  shapeCast S3200000 (extractStridedSlice S1x3200000 ![0, 0] ei slices_S2x3200000_S1x3200000_0_0) shapeCasts_S1x3200000_S3200000

/-- Row 1 of the edge index (the edges' destinations), as a vector. -/
def row1 (ei : IVec S2x3200000 32) : IVec S3200000 32 :=
  shapeCast S3200000 (extractStridedSlice S1x3200000 ![1, 0] ei slices_S2x3200000_S1x3200000_1_0) shapeCasts_S1x3200000_S3200000

/-- The column of gather start indices: the sources, a negative entry wrapped by adding the number of rows. -/
def srcCol (ei : IVec S2x3200000 32) : IVec S3200000x1 32 :=
  broadcastInDim S3200000x1 ![0] bcast_S3200000_S3200000x1_0
    (select (cmpi .slt (row0 ei) (broadcastInDim S3200000 ![] bcast_S_S3200000 (constantI S_ 32 0#32)))
      (addi (row0 ei) (broadcastInDim S3200000 ![] bcast_S_S3200000 (constantI S_ 32 100000#32)))
      (row0 ei))

/-- The column of scatter indices: the destinations. -/
def dstCol (ei : IVec S2x3200000 32) : IVec S3200000x1 32 :=
  broadcastInDim S3200000x1 ![0] bcast_S3200000_S3200000x1_0 (row1 ei)

/-- The neighbour sum of a sixteen-column feature array: each edge's source row, added into zeros at its destination row. -/
def seg16 (ei : IVec S2x3200000 32) (h : FVec F S100000x16 .f32) : FVec F S100000x16 .f32 :=
  Host.scatterAdd scatter_S100000x16_S3200000x1_S3200000x16_1_0_0_1
    (broadcastInDim S100000x16 ![] bcast_S_S100000x16 (constant S_ .f32 0x00000000#32))
    (dstCol ei)
    (Host.gather gather_S100000x16_S3200000x1_S3200000x16_1_0_n_n_0_1_116 h (srcCol ei))

/-- The neighbour sum of a seven-column feature array. -/
def seg7 (ei : IVec S2x3200000 32) (h : FVec F S100000x7 .f32) : FVec F S100000x7 .f32 :=
  Host.scatterAdd scatter_S100000x7_S3200000x1_S3200000x7_1_0_0_1
    (broadcastInDim S100000x7 ![] bcast_S_S100000x7 (constant S_ .f32 0x00000000#32))
    (dstCol ei)
    (Host.gather gather_S100000x7_S3200000x1_S3200000x7_1_0_n_n_0_1_17 h (srcCol ei))

/-- The first graph convolution: the neighbour sum of the features times the neighbour weights, plus the bias on every
    row, plus the features times the root weights. -/
def conv1 (x : FVec F S100000x1433 .f32) (ei : IVec S2x3200000 32) (wroot wrel : FVec F S1433x16 .f32) (b : FVec F S16 .f32) :
    FVec F S100000x16 .f32 :=
  addf
    (addf (seg16 ei (Host.dotGeneral dot_S100000x1433_S1433x16_S100000x16_1_0_0_1_n_n none x wrel))
      (broadcastInDim S100000x16 ![0, 1] bcast_S1x16_S100000x16_0_1 (broadcastInDim S1x16 ![1] bcast_S16_S1x16_1 b)))
    (Host.dotGeneral dot_S100000x1433_S1433x16_S100000x16_1_0_0_1_n_n none x wroot)

/-- The exponential linear unit of an array: an entry above zero kept, any other replaced by one times the exponential
    minus one of that entry (taken of zero where the entry is above zero). -/
def eluR (v : FVec F S100000x16 .f32) : FVec F S100000x16 .f32 :=
  select (cmpf .ogt v (broadcastInDim S100000x16 ![] bcast_S_S100000x16 (constant S_ .f32 0x00000000#32))) v
    (mulf (broadcastInDim S100000x16 ![] bcast_S_S100000x16 (constant S_ .f32 0x3F800000#32))
      (Host.expm1
        (select (cmpf .ogt v (broadcastInDim S100000x16 ![] bcast_S_S100000x16 (constant S_ .f32 0x00000000#32)))
          (broadcastInDim S100000x16 ![] bcast_S_S100000x16 (id (constant S_ .f32 0x00000000#32)))
          v)))

/-- The second graph convolution, on sixteen-column features into seven columns. -/
def conv2 (e : FVec F S100000x16 .f32) (ei : IVec S2x3200000 32) (wroot wrel : FVec F S16x7 .f32) (b : FVec F S7 .f32) :
    FVec F S100000x7 .f32 :=
  addf
    (addf (seg7 ei (Host.dotGeneral dot_S100000x16_S16x7_S100000x7_1_0_0_1_n_n none e wrel))
      (broadcastInDim S100000x7 ![0, 1] bcast_S1x7_S100000x7_0_1 (broadcastInDim S1x7 ![1] bcast_S7_S1x7_1 b)))
    (Host.dotGeneral dot_S100000x16_S16x7_S100000x7_1_0_0_1_n_n none e wroot)

/-- Every row's scores shifted by the row's maximum (the maximum of minus infinity and the row's fold from minus
    infinity, spread back over the row). -/
def lsmShift (v : FVec F S100000x7 .f32) : FVec F S100000x7 .f32 :=
  subf v
    (broadcastInDim S100000x7 ![0, 1] bcast_S100000x1_S100000x7_0_1
      (broadcastInDim S100000x1 ![0] bcast_S100000_S100000x1_0
        (maximumf (broadcastInDim S100000 ![] bcast_S_S100000 (constant S_ .f32 0xFF800000#32))
          (Host.reduce FloatOps.maximumf v (constant S_ .f32 0xFF800000#32) reducesTo_S100000x7_S100000_d1 h_S_))))

/-- The row-wise log-softmax: the shifted scores minus the logarithm of the row's sum of their exponentials. -/
def lsmR (v : FVec F S100000x7 .f32) : FVec F S100000x7 .f32 :=
  subf (lsmShift v)
    (broadcastInDim S100000x7 ![0, 1] bcast_S100000x1_S100000x7_0_1
      (Host.log
        (broadcastInDim S100000x1 ![0] bcast_S100000_S100000x1_0
          (Host.reduceAdd (Host.exp (lsmShift v)) (constant S_ .f32 0x00000000#32) reducesTo_S100000x7_S100000_d1 h_S_))))

/-- The whole reference: log-softmax of the second convolution of the exponential linear unit of the first. -/
def result (x : FVec F S100000x1433 .f32) (ei : IVec S2x3200000 32) (wroot1 wrel1 : FVec F S1433x16 .f32) (b1 : FVec F S16 .f32)
    (wroot2 wrel2 : FVec F S16x7 .f32) (b2 : FVec F S7 .f32) : FVec F S100000x7 .f32 :=
  lsmR (conv2 (eluR (conv1 x ei wroot1 wrel1 b1)) ei wroot2 wrel2 b2)

/-! ## Each stretch read from an arbitrary valuation -/

section Stretches

attribute [local irreducible] Host.gather Host.scatterAdd Host.reduce Host.reduceAdd Host.exp Host.expm1 Host.log

variable (W : Valuation τ sig (Elt F))

/-- After the first stretch the two rows of the edge index sit in their buffers. -/
theorem conv1_v1 : after opsConv1 W (main_v1 : DevRef τ sig) = row0 (W (main_arg1 : DevRef τ sig)) := by
  after_results_simp
  rfl
theorem conv1_v3 : after opsConv1 W (main_v3 : DevRef τ sig) = row1 (W (main_arg1 : DevRef τ sig)) := by
  after_results_simp
  rfl

set_option maxHeartbeats 400000 in
/-- After the first stretch its last buffer holds the first convolution of the arguments. -/
theorem conv1_v19 : after opsConv1 W (main_v19 : DevRef τ sig)
    = conv1 (W (main_arg0 : DevRef τ sig)) (W (main_arg1 : DevRef τ sig)) (W (main_arg2 : DevRef τ sig))
        (W (main_arg3 : DevRef τ sig)) (W (main_arg4 : DevRef τ sig)) := by
  after_results_simp
  rfl

theorem conv1_arg5 : after opsConv1 W (main_arg5 : DevRef τ sig) = W (main_arg5 : DevRef τ sig) := by after_results_simp
theorem conv1_arg6 : after opsConv1 W (main_arg6 : DevRef τ sig) = W (main_arg6 : DevRef τ sig) := by after_results_simp
theorem conv1_arg7 : after opsConv1 W (main_arg7 : DevRef τ sig) = W (main_arg7 : DevRef τ sig) := by after_results_simp

set_option maxHeartbeats 400000 in
/-- After the second stretch the called function's result buffer holds the exponential linear unit of its operand. -/
theorem elu_v20 : after opsElu W (main_v20 : DevRef τ sig) = eluR (W (main_v19 : DevRef τ sig)) := by
  after_results_simp
  rfl

theorem elu_v1 : after opsElu W (main_v1 : DevRef τ sig) = W (main_v1 : DevRef τ sig) := by after_results_simp
theorem elu_v3 : after opsElu W (main_v3 : DevRef τ sig) = W (main_v3 : DevRef τ sig) := by after_results_simp
theorem elu_arg5 : after opsElu W (main_arg5 : DevRef τ sig) = W (main_arg5 : DevRef τ sig) := by after_results_simp
theorem elu_arg6 : after opsElu W (main_arg6 : DevRef τ sig) = W (main_arg6 : DevRef τ sig) := by after_results_simp
theorem elu_arg7 : after opsElu W (main_arg7 : DevRef τ sig) = W (main_arg7 : DevRef τ sig) := by after_results_simp

set_option maxHeartbeats 400000 in
/-- After the third stretch, started where the two row buffers hold the rows of an edge index, its last buffer holds the
    second convolution. -/
theorem conv2_v36 (ei : IVec S2x3200000 32) (h1 : W (main_v1 : DevRef τ sig) = row0 ei) (h3 : W (main_v3 : DevRef τ sig) = row1 ei) :
    after opsConv2 W (main_v36 : DevRef τ sig)
      = conv2 (W (main_v20 : DevRef τ sig)) ei (W (main_arg5 : DevRef τ sig)) (W (main_arg6 : DevRef τ sig)) (W (main_arg7 : DevRef τ sig)) := by
  after_results_simp
  rw [h1, h3]
  rfl

set_option maxHeartbeats 400000 in
/-- After the last stretch the result buffer holds the log-softmax of the function's operand. -/
theorem lsm_v37 : after opsLsm W (main_v37 : DevRef τ sig) = lsmR (W (main_v36 : DevRef τ sig)) := by
  after_results_simp
  rfl

end Stretches

/-! ## The whole line -/

/-- The result buffer after the whole line is the reference's value of the eight arguments. -/
theorem out_eq (V : Valuation τ sig (Elt F)) :
    after ops V (main_v37 : DevRef τ sig)
      = result (V (main_arg0 : DevRef τ sig)) (V (main_arg1 : DevRef τ sig)) (V (main_arg2 : DevRef τ sig)) (V (main_arg3 : DevRef τ sig))
          (V (main_arg4 : DevRef τ sig)) (V (main_arg5 : DevRef τ sig)) (V (main_arg6 : DevRef τ sig)) (V (main_arg7 : DevRef τ sig)) := by
  rw [ops_eq, Cert.Lib.after_append, Cert.Lib.after_append, Cert.Lib.after_append, lsm_v37,
    conv2_v36 _ (V (main_arg1 : DevRef τ sig)) (by rw [elu_v1, conv1_v1]) (by rw [elu_v3, conv1_v3]),
    elu_v20, conv1_v19, elu_arg5, conv1_arg5, elu_arg6, conv1_arg6, elu_arg7, conv1_arg7]
  rfl

theorem arg0_eq (V : Valuation τ sig (Elt F)) :
    after ops V (main_arg0 : DevRef τ sig) = V (main_arg0 : DevRef τ sig) := by after_results_simp
theorem arg1_eq (V : Valuation τ sig (Elt F)) :
    after ops V (main_arg1 : DevRef τ sig) = V (main_arg1 : DevRef τ sig) := by after_results_simp
theorem arg2_eq (V : Valuation τ sig (Elt F)) :
    after ops V (main_arg2 : DevRef τ sig) = V (main_arg2 : DevRef τ sig) := by after_results_simp
theorem arg3_eq (V : Valuation τ sig (Elt F)) :
    after ops V (main_arg3 : DevRef τ sig) = V (main_arg3 : DevRef τ sig) := by after_results_simp
theorem arg4_eq (V : Valuation τ sig (Elt F)) :
    after ops V (main_arg4 : DevRef τ sig) = V (main_arg4 : DevRef τ sig) := by after_results_simp
theorem arg5_eq (V : Valuation τ sig (Elt F)) :
    after ops V (main_arg5 : DevRef τ sig) = V (main_arg5 : DevRef τ sig) := by after_results_simp
theorem arg6_eq (V : Valuation τ sig (Elt F)) :
    after ops V (main_arg6 : DevRef τ sig) = V (main_arg6 : DevRef τ sig) := by after_results_simp
theorem arg7_eq (V : Valuation τ sig (Elt F)) :
    after ops V (main_arg7 : DevRef τ sig) = V (main_arg7 : DevRef τ sig) := by after_results_simp

/-- On the one device, for any float values, from any memory with zero counters: every weakly fair execution of @main
    terminates with the result buffer at the reference's value of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v37)
        = result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v37).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_main m ρ)

end Cert.ReferenceIdeal.HandRun

end
-- ==== Proof.BridgeLayout.lean ====
/-
  Where the two programs lay the same numbers out differently.

  The kernel program multiplies by the two weight matrices of a layer joined side by side and cuts the product into
  its left and right halves; the reference multiplies by each matrix separately.  Column `k` of the left half is
  column `k` of the joined product, whose weights column is the first matrix's column `k`; column `k` of the right half
  is column `k + n` of the joined product, whose weights column is the second matrix's column `k`.  So the halves are
  the two separate products, entry by entry.  A bias reaches entry `(p, k)` as the vector's entry `k` in both programs:
  as a one-row matrix read at row zero, or as a row broadcast down every row.
-/
import proofs.«109476_j62173946577413_1_alg».proof.Proof.KValue
import proofs.«109476_j62173946577413_1_alg».proof.Proof.Gen.ReferenceIdeal
import proofs.«109476_j62173946577413_1_alg».proof.Proof.LibPlainDot
import Idealize.ShloMosaic.Lib.ValueIdx
import Idealize.ShloMosaic.Lib.ValueLayout
import Idealize.ShloMosaic.Lib.Pipeline.Value

noncomputable section

namespace Cert.Bridge

open Idealize.ShloMosaic Idealize.ShloMosaic.ValueIdx
open Cert.KernelIdeal.Fold

/-! ## The host's products at an index -/

theorem dot1_apply (x : Cert.ReferenceIdeal.S100000x1433.Idx → EReal) (w : Cert.ReferenceIdeal.S1433x16.Idx → EReal)
    (p : Fin 100000) (q : Fin 16) :
    Host.dotGeneral (F := Ideal) (φ₁ := .f32) (φ₂ := .f32) Cert.ReferenceIdeal.dot_S100000x1433_S1433x16_S100000x16_1_0_0_1_n_n none x w (ix2 p q)
      = ∑ k : Fin 1433, x (ix2 p k) * w (ix2 k q) :=
  Cert.Lib.dotGeneral_plain_apply (M := 100000) (K := 1433) (N := 16) (φ₁ := .f32) (φ₂ := .f32) none .single x w p q

theorem dot2_apply (x : Cert.ReferenceIdeal.S100000x16.Idx → EReal) (w : Cert.ReferenceIdeal.S16x7.Idx → EReal)
    (p : Fin 100000) (q : Fin 7) :
    Host.dotGeneral (F := Ideal) (φ₁ := .f32) (φ₂ := .f32) Cert.ReferenceIdeal.dot_S100000x16_S16x7_S100000x7_1_0_0_1_n_n none x w (ix2 p q)
      = ∑ k : Fin 16, x (ix2 p k) * w (ix2 k q) :=
  Cert.Lib.dotGeneral_plain_apply (M := 100000) (K := 16) (N := 7) (φ₁ := .f32) (φ₂ := .f32) none .single x w p q

/-! ## The joined weights' columns -/

theorem joinW1_left (wrel wroot : Cert.KernelIdeal.S1433x16.Idx → EReal) (j : Fin 1433) (k : Fin 16) (k' : Fin 32)
    (hk : k'.val = k.val) : joinW1 (F := Ideal) wrel wroot (ix2 j k') = wrel (ix2 j k) := by
  unfold joinW1
  exact concatenate_pair_apply_left (1 : Fin 2) wrel wroot _ (ix2 j k') rfl (ix2 j k)
    (fun b => by match b with | ⟨0, _⟩ => rfl | ⟨1, _⟩ => exact hk.symm)

theorem joinW1_right (wrel wroot : Cert.KernelIdeal.S1433x16.Idx → EReal) (j : Fin 1433) (k : Fin 16) (k' : Fin 32)
    (hk : k'.val = 16 + k.val) : joinW1 (F := Ideal) wrel wroot (ix2 j k') = wroot (ix2 j k) := by
  unfold joinW1
  exact concatenate_pair_apply_right (1 : Fin 2) wrel wroot _ (ix2 j k') rfl rfl (ix2 j k)
    (fun b hb => by match b with | ⟨0, _⟩ => rfl | ⟨1, _⟩ => exact absurd rfl hb)
    (by show k.val + 16 = k'.val; omega)

theorem joinW2_left (wrel wroot : Cert.KernelIdeal.S16x7.Idx → EReal) (j : Fin 16) (k : Fin 7) (k' : Fin 14)
    (hk : k'.val = k.val) : joinW2 (F := Ideal) wrel wroot (ix2 j k') = wrel (ix2 j k) := by
  unfold joinW2
  exact concatenate_pair_apply_left (1 : Fin 2) wrel wroot _ (ix2 j k') rfl (ix2 j k)
    (fun b => by match b with | ⟨0, _⟩ => rfl | ⟨1, _⟩ => exact hk.symm)

theorem joinW2_right (wrel wroot : Cert.KernelIdeal.S16x7.Idx → EReal) (j : Fin 16) (k : Fin 7) (k' : Fin 14)
    (hk : k'.val = 7 + k.val) : joinW2 (F := Ideal) wrel wroot (ix2 j k') = wroot (ix2 j k) := by
  unfold joinW2
  exact concatenate_pair_apply_right (1 : Fin 2) wrel wroot _ (ix2 j k') rfl rfl (ix2 j k)
    (fun b hb => by match b with | ⟨0, _⟩ => rfl | ⟨1, _⟩ => exact absurd rfl hb)
    (by show k.val + 7 = k'.val; omega)

/-! ## The halves of a projection -/

theorem left16_apply (P : Cert.KernelIdeal.S100000x32.Idx → EReal) (p : Fin 100000) (k : Fin 16) :
    left16 (F := Ideal) P (ix2 p k) = P (ix2 p (⟨k.val, by omega⟩ : Fin 32)) :=
  slice2_axis1_apply 0 P _ p k ⟨k.val, by omega⟩ (Nat.zero_add _).symm

theorem right16_apply (P : Cert.KernelIdeal.S100000x32.Idx → EReal) (p : Fin 100000) (k : Fin 16) :
    right16 (F := Ideal) P (ix2 p k) = P (ix2 p (⟨16 + k.val, by omega⟩ : Fin 32)) :=
  slice2_axis1_apply 16 P _ p k ⟨16 + k.val, by omega⟩ rfl

theorem left7_apply (P : Cert.KernelIdeal.S100000x14.Idx → EReal) (p : Fin 100000) (k : Fin 7) :
    left7 (F := Ideal) P (ix2 p k) = P (ix2 p (⟨k.val, by omega⟩ : Fin 14)) :=
  slice2_axis1_apply 0 P _ p k ⟨k.val, by omega⟩ (Nat.zero_add _).symm

theorem right7_apply (P : Cert.KernelIdeal.S100000x14.Idx → EReal) (p : Fin 100000) (k : Fin 7) :
    right7 (F := Ideal) P (ix2 p k) = P (ix2 p (⟨7 + k.val, by omega⟩ : Fin 14)) :=
  slice2_axis1_apply 7 P _ p k ⟨7 + k.val, by omega⟩ rfl

/-! ## A bias at an entry -/

theorem biasRow16_apply (b : Cert.KernelIdeal.S16.Idx → EReal) (k : Fin 16) :
    biasRow16 (F := Ideal) b (ix2 (0 : Fin 1) k) = b (ix1 k) :=
  shapeCast_a_1a_apply b _ 0 k

theorem biasRow7_apply (b : Cert.KernelIdeal.S7.Idx → EReal) (k : Fin 7) :
    biasRow7 (F := Ideal) b (ix2 (0 : Fin 1) k) = b (ix1 k) :=
  shapeCast_a_1a_apply b _ 0 k

open Cert.ReferenceIdeal Cert.ReferenceIdeal.Gen in
theorem biasBcast16_apply (b : Cert.ReferenceIdeal.S16.Idx → EReal) (p : Fin 100000) (k : Fin 16) :
    broadcastInDim S100000x16 ![0, 1] bcast_S1x16_S100000x16_0_1 (broadcastInDim S1x16 ![1] bcast_S16_S1x16_1 b) (ix2 p k)
      = b (ix1 k) :=
  (broadcastInDim_apply _ _ _ _ (ix2 (0 : Fin 1) k) (fun a => by match a with | ⟨0, _⟩ => rfl | ⟨1, _⟩ => rfl)).trans
    (broadcastInDim_apply _ _ _ _ (ix1 k) (fun a => by match a with | ⟨0, _⟩ => rfl))

open Cert.ReferenceIdeal Cert.ReferenceIdeal.Gen in
theorem biasBcast7_apply (b : Cert.ReferenceIdeal.S7.Idx → EReal) (p : Fin 100000) (k : Fin 7) :
    broadcastInDim S100000x7 ![0, 1] bcast_S1x7_S100000x7_0_1 (broadcastInDim S1x7 ![1] bcast_S7_S1x7_1 b) (ix2 p k)
      = b (ix1 k) :=
  (broadcastInDim_apply _ _ _ _ (ix2 (0 : Fin 1) k) (fun a => by match a with | ⟨0, _⟩ => rfl | ⟨1, _⟩ => rfl)).trans
    (broadcastInDim_apply _ _ _ _ (ix1 k) (fun a => by match a with | ⟨0, _⟩ => rfl))

end Cert.Bridge

end
-- ==== Proof.RefMath.lean ====
/-
  The reference program's two activation functions, read at an index on the extended reals.

  The exponential linear unit is printed as a select on `v > 0` between `v` and `1 · expm1 (select (v > 0) 0 v)`; where
  `v > 0` fails the inner select is `v`, `expm1 v` is `exp v - 1`, and multiplying by one changes nothing, so at each
  entry it is `Spec.elu`.  The log-softmax is printed as the scores minus their row maximum (the maximum of minus
  infinity and the row's reduction from minus infinity, which is the row's maximum), minus the logarithm of the row sum
  (from zero) of the exponentials of those differences, so at each entry it is `Spec.lsm` of the row.
-/
import proofs.«109476_j62173946577413_1_alg».proof.Proof.Gen.ReferenceIdeal
import proofs.«109476_j62173946577413_1_alg».proof.Proof.Spec
import proofs.«109476_j62173946577413_1_alg».proof.Proof.Consts
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.Math

open Cert.ReferenceIdeal Cert.ReferenceIdeal.Gen Idealize.ShloMosaic Idealize.ShloMosaic.ValueIdx

/-! ## The exponential linear unit -/

/-- The printed term of the exponential linear unit. -/
def eluT (v : FVec Ideal S100000x16 .f32) : FVec Ideal S100000x16 .f32 :=
  select (cmpf .ogt v (broadcastInDim S100000x16 ![] bcast_S_S100000x16 (constant S_ .f32 0x00000000#32))) v
    (mulf (broadcastInDim S100000x16 ![] bcast_S_S100000x16 (constant S_ .f32 0x3F800000#32))
      (Host.expm1 (select (cmpf .ogt v (broadcastInDim S100000x16 ![] bcast_S_S100000x16 (constant S_ .f32 0x00000000#32)))
        (broadcastInDim S100000x16 ![] bcast_S_S100000x16 (id (constant S_ .f32 0x00000000#32))) v)))

/-- On one extended real: select on `x > 0` between `x` and `1 · (exp (select (x > 0) 0 x) - 1)` is `Spec.elu x`. -/
theorem elu_scalar (x : EReal) :
    Scalar.select (Ideal.cmp .ogt x (Ideal.ofBits .f32 0x00000000#32)) x
      (Ideal.ofBits .f32 0x3F800000#32
        * (Ideal.exp (Scalar.select (Ideal.cmp .ogt x (Ideal.ofBits .f32 0x00000000#32)) (Ideal.ofBits .f32 0x00000000#32) x) - 1))
      = Cert.Spec.elu x := by
  rw [Cert.Consts.ofBits_zero, Cert.Consts.ofBits_one]
  unfold Cert.Spec.elu Ideal.cmp
  by_cases h : (0 : EReal) < x
  · simp [h, Scalar.select]
  · simp [h, Scalar.select]

theorem eluT_apply (v : FVec Ideal S100000x16 .f32) (i : S100000x16.Idx) : eluT v i = Cert.Spec.elu (v i) :=
  elu_scalar (v i)

/-! ## The log-softmax -/

/-- The printed row maximum: the maximum of minus infinity and the row's reduction from minus infinity. -/
def rowMaxT (v : FVec Ideal S100000x7 .f32) : FVec Ideal S100000 .f32 :=
  maximumf (broadcastInDim S100000 ![] bcast_S_S100000 (constant S_ .f32 0xFF800000#32))
    (Host.reduce FloatOps.maximumf v (constant S_ .f32 0xFF800000#32) reducesTo_S100000x7_S100000_d1 h_S_)

/-- The printed shifted scores: each score minus its row's maximum. -/
def shiftedT (v : FVec Ideal S100000x7 .f32) : FVec Ideal S100000x7 .f32 :=
  subf v (broadcastInDim S100000x7 ![0, 1] bcast_S100000x1_S100000x7_0_1
    (broadcastInDim S100000x1 ![0] bcast_S100000_S100000x1_0 (rowMaxT v)))

/-- The printed log-softmax. -/
def lsmT (v : FVec Ideal S100000x7 .f32) : FVec Ideal S100000x7 .f32 :=
  subf (shiftedT v) (broadcastInDim S100000x7 ![0, 1] bcast_S100000x1_S100000x7_0_1
    (Host.log (broadcastInDim S100000x1 ![0] bcast_S100000_S100000x1_0
      (Host.reduceAdd (Host.exp (shiftedT v)) (constant S_ .f32 0x00000000#32) reducesTo_S100000x7_S100000_d1 h_S_))))

/-- A vector laid out as a column reads, at row `p`, the vector's entry `p`. -/
theorem col_apply {α : Type} (r : S100000.Idx → α) (p : Fin 100000) (u : Fin 1) :
    broadcastInDim S100000x1 ![0] bcast_S100000_S100000x1_0 r (ix2 p u) = r (ix1 p) :=
  broadcastInDim_apply _ _ _ _ (ix1 p) (fun a => by match a with | ⟨0, _⟩ => rfl)

/-- A column broadcast along the rows reads, at `(p, q)`, the column's entry of row `p`. -/
theorem colBcast_apply {α : Type} (w : S100000x1.Idx → α) (p : Fin 100000) (q : Fin 7) :
    broadcastInDim S100000x7 ![0, 1] bcast_S100000x1_S100000x7_0_1 w (ix2 p q) = w (ix2 p (0 : Fin 1)) :=
  broadcastInDim_apply _ _ _ _ (ix2 p (0 : Fin 1)) (fun a => by match a with | ⟨0, _⟩ => rfl | ⟨1, _⟩ => rfl)

/-- The reduction witness in the form that names the inserted index. -/
theorem reduces_d1 : S100000x7.Reduces [1] S100000 := by decide

/-- The row index `p` with the column `k` inserted is `(p, k)`. -/
theorem lift_d1 (p : Fin 100000) (k : Fin 7) : reduces_d1.lift (ix1 p) k = ix2 p k := by
  funext a; match a with | ⟨0, _⟩ => rfl | ⟨1, _⟩ => rfl

theorem rowMaxT_apply (v : FVec Ideal S100000x7 .f32) (p : Fin 100000) :
    rowMaxT v (ix1 p) = Cert.Spec.rowMax (fun j => v (ix2 p j)) := by
  haveI : Std.Commutative (FloatOps.maximumf (F := Ideal) (φ := .f32)) := ⟨fun a b => max_comm a b⟩
  haveI : Std.Associative (FloatOps.maximumf (F := Ideal) (φ := .f32)) := ⟨fun a b c => max_assoc a b c⟩
  unfold rowMaxT
  rw [maximumf_apply, Host.reduce_eq_fold_single FloatOps.maximumf v _ reducesTo_S100000x7_S100000_d1 reduces_d1 h_S_ (ix1 p)]
  show max (Ideal.ofBits .f32 0xFF800000#32) ((Finset.univ : Finset (Fin 7)).fold max (Ideal.ofBits .f32 0xFF800000#32) (v ∘ reduces_d1.lift (ix1 p))) = _
  rw [Cert.Consts.ofBits_negInf, max_bot_left]
  unfold Cert.Spec.rowMax
  congr 1
  funext k
  exact congrArg v (lift_d1 p k)

theorem shiftedT_apply (v : FVec Ideal S100000x7 .f32) (p : Fin 100000) (q : Fin 7) :
    shiftedT v (ix2 p q) = v (ix2 p q) - Cert.Spec.rowMax (fun j => v (ix2 p j)) := by
  unfold shiftedT
  rw [subf_apply, colBcast_apply, col_apply, rowMaxT_apply]

/-- The host's logarithm and exponential act entry by entry. -/
theorem hostLog_apply {s : Shape} {φ : FTy} (x : FVec Ideal s φ) (i : s.Idx) : Host.log x i = Ideal.log (x i) := rfl
theorem hostExp_apply {s : Shape} {φ : FTy} (x : FVec Ideal s φ) (i : s.Idx) : Host.exp x i = Ideal.exp (x i) := rfl

/-- The host's sum reduction is the exact sum from the initial value's one entry. -/
theorem hostReduceAdd_eq {s t u : Shape} {φ : FTy} {axes : List (Fin s.rank)} (x : FVec Ideal s φ) (init : u.Idx → Ideal φ)
    (h : s.ReducesTo axes t) (hu : 0 < u.numel) :
    Host.reduceAdd x init h hu = Ideal.hostReduceAdd h x (init (Shape.Idx.first hu)) := rfl

/-- The row sum from zero of an array of seven columns. -/
theorem rowSum_apply (x : FVec Ideal S100000x7 .f32) (p : Fin 100000) :
    Host.reduceAdd x (constant S_ .f32 0x00000000#32) reducesTo_S100000x7_S100000_d1 h_S_ (ix1 p) = ∑ k : Fin 7, x (ix2 p k) := by
  rw [hostReduceAdd_eq, Ideal.hostReduceAdd_single reducesTo_S100000x7_S100000_d1 reduces_d1, constant_apply,
    Cert.Consts.ofBits_zero, zero_add]
  exact Finset.sum_congr rfl fun k _ => congrArg x (lift_d1 p k)

theorem lsmT_apply (v : FVec Ideal S100000x7 .f32) (p : Fin 100000) (q : Fin 7) :
    lsmT v (ix2 p q) = Cert.Spec.lsm (fun j => v (ix2 p j)) q := by
  unfold lsmT
  rw [subf_apply, colBcast_apply, shiftedT_apply, hostLog_apply, col_apply, rowSum_apply]
  have hs : (∑ k : Fin 7, Host.exp (shiftedT v) (ix2 p k))
      = ∑ j : Fin 7, Ideal.exp (v (ix2 p j) - Cert.Spec.rowMax (fun j => v (ix2 p j))) :=
    Finset.sum_congr rfl fun k _ => by rw [hostExp_apply, shiftedT_apply]
  rw [hs]
  rfl

end Cert.ReferenceIdeal.Math

end
-- ==== Proof.BridgeValue.lean ====
/-
  The two programs compute one function of their arguments.

  Layer by layer.  The halves of the kernel program's first projection are the reference's two products, so the edge
  aggregations — the same gather and scatter-add applied to equal arrays — agree, and the pre-activation
  `(agg + root) + bias` is the reference's `(agg + bias) + root` by commutativity and associativity of addition on the
  extended reals (no finiteness is needed).  The exponential linear unit is the same scalar function in both spellings,
  so the activated arrays agree; the second layer repeats the argument on them.  Finally both programs apply the
  log-softmax of a row of seven scores to equal rows.
-/
import proofs.«109476_j62173946577413_1_alg».proof.Proof.BridgeLayout
import proofs.«109476_j62173946577413_1_alg».proof.Proof.RefValue
import proofs.«109476_j62173946577413_1_alg».proof.Proof.RefMath

noncomputable section

namespace Cert.Bridge

open Idealize.ShloMosaic Idealize.ShloMosaic.ValueIdx
open Cert.KernelIdeal.Fold

/-! ## The shared edge aggregation -/

section Agg
attribute [local irreducible] Host.gather Host.scatterAdd

theorem seg16_eq (ei : (⟨Cert.KernelIdeal.S2x3200000, .i32⟩ : BufTy).Contents (Elt Ideal)) (h : Cert.KernelIdeal.S100000x16.Idx → EReal) :
    seg16 (F := Ideal) (srcRow ei) (dstRow ei) h = Cert.ReferenceIdeal.HandRun.seg16 (F := Ideal) ei h := rfl

theorem seg7_eq (ei : (⟨Cert.KernelIdeal.S2x3200000, .i32⟩ : BufTy).Contents (Elt Ideal)) (h : Cert.KernelIdeal.S100000x7.Idx → EReal) :
    seg7 (F := Ideal) (srcRow ei) (dstRow ei) h = Cert.ReferenceIdeal.HandRun.seg7 (F := Ideal) ei h := rfl

end Agg

/-! ## The reference's activations at an index -/

theorem eluR_apply (v : Cert.ReferenceIdeal.S100000x16.Idx → EReal) (i : Cert.ReferenceIdeal.S100000x16.Idx) :
    Cert.ReferenceIdeal.HandRun.eluR (F := Ideal) v i = Cert.Spec.elu (v i) :=
  Cert.ReferenceIdeal.Math.eluT_apply v i

theorem lsmR_apply (v : Cert.ReferenceIdeal.S100000x7.Idx → EReal) (p : Fin 100000) (q : Fin 7) :
    Cert.ReferenceIdeal.HandRun.lsmR (F := Ideal) v (ix2 p q) = Cert.Spec.lsm (fun j => v (ix2 p j)) q :=
  Cert.ReferenceIdeal.Math.lsmT_apply v p q

/-! ## The first layer -/

variable (x : Cert.KernelIdeal.S100000x1433.Idx → EReal) (ei : (⟨Cert.KernelIdeal.S2x3200000, .i32⟩ : BufTy).Contents (Elt Ideal))
  (wroot1 wrel1 : Cert.KernelIdeal.S1433x16.Idx → EReal) (b1 : Cert.KernelIdeal.S16.Idx → EReal)
  (wroot2 wrel2 : Cert.KernelIdeal.S16x7.Idx → EReal) (b2 : Cert.KernelIdeal.S7.Idx → EReal)

theorem stage1_apply (p : Fin 100000) (k' : Fin 32) :
    stage1 x wroot1 wrel1 (ix2 p k') = ∑ j : Fin 1433, x (ix2 p j) * joinW1 (F := Ideal) wrel1 wroot1 (ix2 j k') := rfl

/-- The left half of the first projection is the features times the neighbour weights. -/
theorem left16_stage1 :
    left16 (F := Ideal) (stage1 x wroot1 wrel1)
      = Host.dotGeneral (F := Ideal) (φ₁ := .f32) (φ₂ := .f32) Cert.ReferenceIdeal.dot_S100000x1433_S1433x16_S100000x16_1_0_0_1_n_n none x wrel1 := by
  funext i
  obtain ⟨p, k, rfl⟩ : ∃ (p : Fin 100000) (k : Fin 16), i = ix2 p k := ⟨i 0, i 1, eq_ix2 i⟩
  rw [left16_apply, stage1_apply, dot1_apply]
  exact Finset.sum_congr rfl fun j _ => by rw [joinW1_left wrel1 wroot1 j k _ rfl]

/-- The right half of the first projection is the features times the root weights. -/
theorem right16_stage1 (p : Fin 100000) (k : Fin 16) :
    right16 (F := Ideal) (stage1 x wroot1 wrel1) (ix2 p k)
      = Host.dotGeneral (F := Ideal) (φ₁ := .f32) (φ₂ := .f32) Cert.ReferenceIdeal.dot_S100000x1433_S1433x16_S100000x16_1_0_0_1_n_n none x wroot1 (ix2 p k) := by
  rw [right16_apply, stage1_apply, dot1_apply]
  exact Finset.sum_congr rfl fun j _ => by rw [joinW1_right wrel1 wroot1 j k _ rfl]

/-- The first layer's pre-activation, entry by entry. -/
theorem pre1 (p : Fin 100000) (k : Fin 16) :
    (seg16 (F := Ideal) (srcRow ei) (dstRow ei) (left16 (F := Ideal) (stage1 x wroot1 wrel1)) (ix2 p k)
        + right16 (F := Ideal) (stage1 x wroot1 wrel1) (ix2 p k)) + biasRow16 (F := Ideal) b1 (ix2 (0 : Fin 1) k)
      = Cert.ReferenceIdeal.HandRun.conv1 (F := Ideal) x ei wroot1 wrel1 b1 (ix2 p k) := by
  rw [left16_stage1, seg16_eq, right16_stage1, biasRow16_apply]
  unfold Cert.ReferenceIdeal.HandRun.conv1
  rw [addf_apply, addf_apply, biasBcast16_apply]
  exact add_right_comm _ _ _

/-! ## The second layer -/

theorem stage2_apply (p : Fin 100000) (q' : Fin 14) :
    stage2 x ei wroot1 wrel1 b1 wroot2 wrel2 (ix2 p q')
      = ∑ k : Fin 16, Cert.ReferenceIdeal.HandRun.eluR (F := Ideal) (Cert.ReferenceIdeal.HandRun.conv1 (F := Ideal) x ei wroot1 wrel1 b1) (ix2 p k)
          * joinW2 (F := Ideal) wrel2 wroot2 (ix2 k q') := by
  show (∑ k : Fin 16, Cert.Spec.elu ((seg16 (F := Ideal) (srcRow ei) (dstRow ei) (left16 (F := Ideal) (stage1 x wroot1 wrel1)) (ix2 p k)
        + right16 (F := Ideal) (stage1 x wroot1 wrel1) (ix2 p k)) + biasRow16 (F := Ideal) b1 (ix2 (0 : Fin 1) k))
      * joinW2 (F := Ideal) wrel2 wroot2 (ix2 k q')) = _
  exact Finset.sum_congr rfl fun k _ => by rw [pre1, eluR_apply]

theorem left7_stage2 :
    left7 (F := Ideal) (stage2 x ei wroot1 wrel1 b1 wroot2 wrel2)
      = Host.dotGeneral (F := Ideal) (φ₁ := .f32) (φ₂ := .f32) Cert.ReferenceIdeal.dot_S100000x16_S16x7_S100000x7_1_0_0_1_n_n none
          (Cert.ReferenceIdeal.HandRun.eluR (F := Ideal) (Cert.ReferenceIdeal.HandRun.conv1 (F := Ideal) x ei wroot1 wrel1 b1)) wrel2 := by
  funext i
  obtain ⟨p, k, rfl⟩ : ∃ (p : Fin 100000) (k : Fin 7), i = ix2 p k := ⟨i 0, i 1, eq_ix2 i⟩
  rw [left7_apply, stage2_apply, dot2_apply]
  exact Finset.sum_congr rfl fun j _ => by rw [joinW2_left wrel2 wroot2 j k _ rfl]

theorem right7_stage2 (p : Fin 100000) (k : Fin 7) :
    right7 (F := Ideal) (stage2 x ei wroot1 wrel1 b1 wroot2 wrel2) (ix2 p k)
      = Host.dotGeneral (F := Ideal) (φ₁ := .f32) (φ₂ := .f32) Cert.ReferenceIdeal.dot_S100000x16_S16x7_S100000x7_1_0_0_1_n_n none
          (Cert.ReferenceIdeal.HandRun.eluR (F := Ideal) (Cert.ReferenceIdeal.HandRun.conv1 (F := Ideal) x ei wroot1 wrel1 b1)) wroot2 (ix2 p k) := by
  rw [right7_apply, stage2_apply, dot2_apply]
  exact Finset.sum_congr rfl fun j _ => by rw [joinW2_right wrel2 wroot2 j k _ rfl]

/-- The second layer's pre-activation, entry by entry. -/
theorem pre2 (p : Fin 100000) (k : Fin 7) :
    (seg7 (F := Ideal) (srcRow ei) (dstRow ei) (left7 (F := Ideal) (stage2 x ei wroot1 wrel1 b1 wroot2 wrel2)) (ix2 p k)
        + right7 (F := Ideal) (stage2 x ei wroot1 wrel1 b1 wroot2 wrel2) (ix2 p k)) + biasRow7 (F := Ideal) b2 (ix2 (0 : Fin 1) k)
      = Cert.ReferenceIdeal.HandRun.conv2 (F := Ideal)
          (Cert.ReferenceIdeal.HandRun.eluR (F := Ideal) (Cert.ReferenceIdeal.HandRun.conv1 (F := Ideal) x ei wroot1 wrel1 b1))
          ei wroot2 wrel2 b2 (ix2 p k) := by
  rw [left7_stage2, seg7_eq, right7_stage2, biasRow7_apply]
  unfold Cert.ReferenceIdeal.HandRun.conv2
  rw [addf_apply, addf_apply, biasBcast7_apply]
  exact add_right_comm _ _ _

/-! ## The results -/

/-- The kernel program's result and the reference's are one function of the arguments. -/
theorem value_eq_result :
    value x ei wroot1 wrel1 b1 wroot2 wrel2 b2
      = Cert.ReferenceIdeal.HandRun.result (F := Ideal) x ei wroot1 wrel1 b1 wroot2 wrel2 b2 := by
  funext i
  obtain ⟨p, q, rfl⟩ : ∃ (p : Fin 100000) (q : Fin 7), i = ix2 p q := ⟨i 0, i 1, eq_ix2 i⟩
  unfold Cert.ReferenceIdeal.HandRun.result
  rw [lsmR_apply]
  show Cert.Spec.lsm (fun j =>
      (seg7 (F := Ideal) (srcRow ei) (dstRow ei) (left7 (F := Ideal) (stage2 x ei wroot1 wrel1 b1 wroot2 wrel2)) (ix2 p j)
        + right7 (F := Ideal) (stage2 x ei wroot1 wrel1 b1 wroot2 wrel2) (ix2 p j)) + biasRow7 (F := Ideal) b2 (ix2 (0 : Fin 1) j)) q = _
  exact congrArg (fun h => Cert.Spec.lsm h q) (funext fun j => pre2 x ei wroot1 wrel1 b1 wroot2 wrel2 b2 p j)

end Cert.Bridge

end
-- ==== Proof.lean ====
/-
  A two-layer graph convolution with an exponential linear unit between the layers and a row-wise log-softmax at the
  end, computed two ways, is one function of its inputs on the extended reals.

  The kernel program runs three kernel launches — the features times both first-layer weight matrices joined side by
  side; the sum of the aggregated neighbour term, the root term and the bias through the exponential linear unit,
  times both second-layer weight matrices joined; the second sum through the log-softmax — with the edge aggregation
  (gather the source rows, add them into the destination rows) on the host between them.  The reference runs the same
  two layers as host operations, each weight matrix multiplied separately.

  Three frames: the two kernel programs' are the generated frame certificates; the reference's is its run with the
  result forgotten.  The idealized kernel program is the printed program read at the extended reals, with no rewrite to
  restate.  For the equivalence, the kernel program's run ends with its result array at `Fold.value` of the arguments
  (each launch's output as a whole-array function, composed through the host stretches), the reference's run ends at
  `HandRun.result` of the arguments, and the two are one function (`Bridge.value_eq_result`): the halves of a joined
  product are the separate products, `(a + r) + b = (a + b) + r`, the two spellings of the exponential linear unit are
  one scalar function, and both log-softmaxes are the same function of a row.  No step uses that the inputs are finite.
-/
import proofs.«109476_j62173946577413_1_alg».proof.Defs
import proofs.«109476_j62173946577413_1_alg».proof.Proof.Gen.Kernel
import proofs.«109476_j62173946577413_1_alg».proof.Proof.Gen.Kernel.Frame
import proofs.«109476_j62173946577413_1_alg».proof.Proof.Gen.KernelIdeal
import proofs.«109476_j62173946577413_1_alg».proof.Proof.Gen.KernelIdeal.Frame
import proofs.«109476_j62173946577413_1_alg».proof.Proof.Gen.ReferenceIdeal
import proofs.«109476_j62173946577413_1_alg».proof.Proof.Gen.Pre_finite_inputs
import proofs.«109476_j62173946577413_1_alg».proof.Proof.KRun
import proofs.«109476_j62173946577413_1_alg».proof.Proof.KClosed
import proofs.«109476_j62173946577413_1_alg».proof.Proof.RefValue
import proofs.«109476_j62173946577413_1_alg».proof.Proof.BridgeValue

noncomputable section

namespace Cert.Proof

open Idealize.ShloMosaic Idealize.ShloMosaic.TcCoe Idealize.SL.Sem

theorem frame_kernel : @Cert.frame_Kernel Cert.Kernel.Gen.facts Cert.Pre_finite_inputs.Gen.facts :=
  fun m ρ _ => Cert.Kernel.Gen.frame m ρ

theorem frame_kernelIdeal : @Cert.frame_KernelIdeal Cert.KernelIdeal.Gen.facts Cert.Pre_finite_inputs.Gen.facts :=
  fun m ρ _ => Cert.KernelIdeal.Gen.frame m ρ

/-- The reference's frame: its run, the result forgotten. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.HandRun.run (F := Ideal) m ρ)

/-- The two programs end with equal result arrays: both at `Fold.value` of the (agreeing) arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.KernelIdeal.Fold.value
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.KernelIdeal.Fold.result_eq m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.HandRun.run (F := Ideal) m' ρ')
    obtain ⟨h0, h1, h2, h3, h4, h5, h6, h7⟩ := hagree c
    rw [h0, h1, h2, h3, h4, h5, h6, h7]
    exact (Cert.Bridge.value_eq_result _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
